-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16384 : Shape := ⟨2, ![64, 16384]⟩
abbrev S64x1 : Shape := ⟨2, ![64, 1]⟩
abbrev S128x128 : Shape := ⟨2, ![128, 128]⟩
abbrev S128 : Shape := ⟨1, ![128]⟩
abbrev S1x128 : Shape := ⟨2, ![1, 128]⟩
abbrev S256x128 : Shape := ⟨2, ![256, 128]⟩
abbrev S256x1 : Shape := ⟨2, ![256, 1]⟩
abbrev S1 : Shape := ⟨1, ![1]⟩
abbrev S_ : Shape := ⟨0, ![]⟩

class Facts : Prop where
  bcast_S_S64x16384 : S_.BroadcastsInDim S64x16384 (![] : Fin 0 → Fin S64x16384.rank)
  reducesTo_S64x16384_S_d0_1 : S64x16384.ReducesTo [0, 1] S_
  h_S_ : 0 < S_.numel
  bcast_S_S64x1 : S_.BroadcastsInDim S64x1 (![] : Fin 0 → Fin S64x1.rank)
  reducesTo_S64x1_S_d0_1 : S64x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S256x128 : S_.BroadcastsInDim S256x128 (![] : Fin 0 → Fin S256x128.rank)
  reducesTo_S256x128_S_d0_1 : S256x128.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S256x1 .f32) (main_arg15 : FVec F S1 .f32) (main_v63 : IVec S_ 1) (main_v67 : IVec S_ 1) : IVec S_ 1 :=
  let main_v68 : IVec S_ 1 := andi main_v63 main_v67
  let main_v69 : FVec F S256x1 .f32 := Host.absf main_arg14
  let main_cst_26 : FVec F S_ .f32 := constant S_ .f32 0x7F800000#32
  let main_v70 : FVec F S256x1 .f32 := broadcastInDim S256x1 ![] bcast_S_S256x1 main_cst_26
  let main_v71 : IVec S256x1 1 := cmpf .olt main_v69 main_v70
  let main_c_27 : IVec S_ 1 := constantI S_ 1 1#1
  let main_v72 : IVec S_ 1 := (fun x v => Host.reduce IntOp.andi x v reducesTo_S256x1_S_d0_1 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg11 : FVec F S128 .f32) (main_arg12 : FVec F S256x128 .f32) (main_arg13 : FVec F S128 .f32) (main_arg14 : FVec F S256x1 .f32) (main_arg15 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S256x128 .f32 := Host.absf main_arg12
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_v63 main_v67

def fn_part2 {F : FTy → Type} [FloatOps F] (main_arg7 : FVec F S128 .f32) (main_arg8 : FVec F S1x128 .f32) (main_arg9 : FVec F S128 .f32) (main_arg10 : FVec F S128x128 .f32) (main_arg11 : FVec F S128 .f32) (main_arg12 : FVec F S256x128 .f32) (main_arg13 : FVec F S128 .f32) (main_arg14 : FVec F S256x1 .f32) (main_arg15 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S1x128 .f32 := Host.absf main_arg8
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S1x128 .f32) (main_arg9 : FVec F S128 .f32) (main_arg10 : FVec F S128x128 .f32) (main_arg11 : FVec F S128 .f32) (main_arg12 : FVec F S256x128 .f32) (main_arg13 : FVec F S128 .f32) (main_arg14 : FVec F S256x1 .f32) (main_arg15 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S64x16384 .f32) (main_arg1 : FVec F S64x1 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S1x128 .f32) (main_arg9 : FVec F S128 .f32) (main_arg10 : FVec F S128x128 .f32) (main_arg11 : FVec F S128 .f32) (main_arg12 : FVec F S256x128 .f32) (main_arg13 : FVec F S128 .f32) (main_arg14 : FVec F S256x1 .f32) (main_arg15 : FVec F S1 .f32) : IVec S_ 1 :=
  let main_v0 : FVec F S64x16384 .f32 := Host.absf main_arg0
  let main_cst : FVec F S_ .f32 := constant S_ .f32 0x7F800000#32
  let main_v1 : FVec F S64x16384 .f32 := broadcastInDim S64x16384 ![] bcast_S_S64x16384 main_cst
  let main_v2 : IVec S64x16384 1 := cmpf .olt main_v0 main_v1
  let main_c : IVec S_ 1 := constantI S_ 1 1#1
  let main_v3 : IVec S_ 1 := (fun x v => Host.reduce IntOp.andi x v reducesTo_S64x16384_S_d0_1 h_S_) main_v2 main_c
  let main_v4 : FVec F S64x1 .f32 := Host.absf main_arg1
  let main_cst_0 : FVec F S_ .f32 := constant S_ .f32 0x7F800000#32
  let main_v5 : FVec F S64x1 .f32 := broadcastInDim S64x1 ![] bcast_S_S64x1 main_cst_0
  let main_v6 : IVec S64x1 1 := cmpf .olt main_v4 main_v5
  let main_c_1 : IVec S_ 1 := constantI S_ 1 1#1
  let main_v7 : IVec S_ 1 := (fun x v => Host.reduce IntOp.andi x v reducesTo_S64x1_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S64x16384 : Shape := ⟨2, ![64, 16384]⟩
abbrev S64x1 : Shape := ⟨2, ![64, 1]⟩
abbrev S128x128 : Shape := ⟨2, ![128, 128]⟩
abbrev S128 : Shape := ⟨1, ![128]⟩
abbrev S1x128 : Shape := ⟨2, ![1, 128]⟩
abbrev S256x128 : Shape := ⟨2, ![256, 128]⟩
abbrev S256x1 : Shape := ⟨2, ![256, 1]⟩
abbrev S1 : Shape := ⟨1, ![1]⟩
abbrev S64x128x128 : Shape := ⟨3, ![64, 128, 128]⟩
abbrev S1x1 : Shape := ⟨2, ![1, 1]⟩
abbrev S1x128x128 : Shape := ⟨3, ![1, 128, 128]⟩
abbrev S128x1 : Shape := ⟨2, ![128, 1]⟩

abbrev nBuf : Space → Nat
  | .hbm => 25
  | .vmem => 19
  | .smem => 0
  | _ => 0

abbrev bufTy : (tb : Table) → Fin (tcTables nBuf tb) → BufTy
  | .hbm, ⟨0, _⟩ => ⟨S64x16384, .f32⟩
  | .hbm, ⟨1, _⟩ => ⟨S64x1, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S256x128, .f32⟩
  | .hbm, ⟨13, _⟩ => ⟨S128, .f32⟩
  | .hbm, ⟨14, _⟩ => ⟨S256x1, .f32⟩
  | .hbm, ⟨15, _⟩ => ⟨S1, .f32⟩
  | .hbm, ⟨16, _⟩ => ⟨S64x128x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S1x1, .f32⟩
  | .hbm, ⟨24, _⟩ => ⟨S64x128x128, .f32⟩
  | .local _ .vmem, ⟨0, _⟩ => ⟨S1x128x128, .f32⟩
  | .local _ .vmem, ⟨1, _⟩ => ⟨S1x128x128, .f32⟩
  | .local _ .vmem, ⟨2, _⟩ => ⟨S64x1, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S128x128, .f32⟩
  | .local _ .vmem, ⟨12, _⟩ => ⟨S1x128, .f32⟩
  | .local _ .vmem, ⟨13, _⟩ => ⟨S256x128, .f32⟩
  | .local _ .vmem, ⟨14, _⟩ => ⟨S1x128, .f32⟩
  | .local _ .vmem, ⟨15, _⟩ => ⟨S256x1, .f32⟩
  | .local _ .vmem, ⟨16, _⟩ => ⟨S1x1, .f32⟩
  | .local _ .vmem, ⟨17, _⟩ => ⟨S1x128x128, .f32⟩
  | .local _ .vmem, ⟨18, _⟩ => ⟨S1x128x128, .f32⟩
  | _, _ => ⟨S64x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let arg0 : BitVec 32 := BitVec.ofNat 32 (i 0).val
  let v51 : Index := Scalar.indexCast arg0
  let c0_31 : Index := 0#32
  ![v51.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  shapeCasts_S64x16384_S64x128x128 : S64x16384.ShapeCasts S64x128x128
  shapeCasts_S128_S1x128 : S128.ShapeCasts S1x128
  shapeCasts_S1_S1x1 : S1.ShapeCasts S1x1
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  iota_S128x128_d0_w32 : S128x128.Iotas .tc 32 [0]
  iota_S128x128_d1_w32 : S128x128.Iotas .tc 32 [1]
  natLt_1_32 : 1 < 32
  reduces_S128x128_S128 : S128x128.Reduces [1] S128
  shapeCasts_S128_S128x1 : S128.ShapeCasts S128x1
  broadcasts_S128x1_S128x128 : S128x1.Broadcasts S128x128
  shapeCasts_S128x1_S1x128 : S128x1.ShapeCasts S1x128
  broadcasts_S1x128_S128x128 : S1x128.Broadcasts S128x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S256x1_S128x1_0_0 : ∀ a, (![0, 0] : Fin 2 → Nat) a + S128x1.size a ≤ S256x1.size a
  h_S128x1 : 0 < S128x1.numel
  inb_S256x128_S128x128_0_0 : ∀ a, (![0, 0] : Fin 2 → Nat) a + S128x128.size a ≤ S256x128.size a
  inb_S256x128_S128x128_128_0 : ∀ a, (![128, 0] : Fin 2 → Nat) a + S128x128.size a ≤ S256x128.size a
  h_S1x1 : 0 < S1x1.numel
  inb_S256x1_S128x1_128_0 : ∀ a, (![128, 0] : Fin 2 → Nat) a + S128x1.size a ≤ S256x1.size a
  inpos_S1x1_p0_0 : ∀ a, (![0, 0] : Fin 2 → Nat) a < S1x1.size a
  inb_S1x1_S1x1_0_0 : ∀ a, (![0, 0] : Fin 2 → Nat) a + S1x1.size a ≤ S1x1.size a
  shapeCasts_S128x128_S1x128x128 : S128x128.ShapeCasts S1x128x128
  dot_S128x128_S128x128_S128x128_1_0_0_1_n_n_wf : DotDims.WF S128x128 S128x128 S128x128 [1] [0] [0] [1] [] []
  dot_S128x128_S128x1_S128x1_1_0_0_1_n_n_wf : DotDims.WF S128x128 S128x1 S128x1 [1] [0] [0] [1] [] []
  dot_S1x1_S1x128_S1x128_1_0_0_1_n_n_wf : DotDims.WF S1x1 S1x128 S1x128 [1] [0] [0] [1] [] []
  dot_S1x128_S128x128_S1x128_1_0_0_1_n_n_wf : DotDims.WF S1x128 S128x128 S1x128 [1] [0] [0] [1] [] []
  dot_S1x128_S128x1_S1x1_1_0_0_1_n_n_wf : DotDims.WF S1x128 S128x1 S1x1 [1] [0] [0] [1] [] []
  hrank0 : 0 < grid0.rank
  k0_off1_inb : ∀ i : grid0.Coords, ∀ a, (k0_off1 i) a + S1x1.size a ≤ S64x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128.size a ≤ S64x128x128.size a
  hwx0_0 : ∀ i : grid0.Coords, EltTy.bits .f32 = 32 ∨ (Rect.block (s := S64x128x128) S1x128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S64x1.size a
  hwx0_1 : ∀ i : grid0.Coords, EltTy.bits .f32 = 32 ∨ (Rect.block (s := S64x1) S64x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x128.size a ≤ S256x128.size a
  hwx0_12 : ∀ i : grid0.Coords, EltTy.bits .f32 = 32 ∨ (Rect.block (s := S256x128) S256x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x1.size a ≤ S256x1.size a
  hwx0_14 : ∀ i : grid0.Coords, EltTy.bits .f32 = 32 ∨ (Rect.block (s := S256x1) S256x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1.size a ≤ S1x1.size a
  hwx0_15 : ∀ i : grid0.Coords, EltTy.bits .f32 = 32 ∨ (Rect.block (s := S1x1) S1x1.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x128x128.size a ≤ S64x128x128.size a
  hwx0_16 : ∀ i : grid0.Coords, EltTy.bits .f32 = 32 ∨ (Rect.block (s := S64x128x128) S1x128x128.size (cc0_transform_16 i) (hinb0_16 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf
def dot_S1x1_S1x128_S1x128_1_0_0_1_n_n : DotDims S1x1 S1x128 S1x128 where
  lhsContracting := [1]
  rhsContracting := [0]
  lhsNonContracting := [0]
  rhsNonContracting := [1]
  lhsBatch := []
  rhsBatch := []
  wf := dot_S1x1_S1x128_S1x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S1x128_S128x1_S1x1_1_0_0_1_n_n : DotDims S1x128 S128x1 S1x1 where
  lhsContracting := [1]
  rhsContracting := [0]
  lhsNonContracting := [0]
  rhsNonContracting := [1]
  lhsBatch := []
  rhsBatch := []
  wf := dot_S1x128_S128x1_S1x1_1_0_0_1_n_n_wf

abbrev win0_0 : Pipeline.Window sig grid0 :=
  Pipeline.Window.ofSpec (Memref.whole main_v0) S1x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S256x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S256x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v7) S1x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v8) S1x128x128.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S64x16384 : Shape := ⟨2, ![64, 16384]⟩
abbrev S64x1 : Shape := ⟨2, ![64, 1]⟩
abbrev S128x128 : Shape := ⟨2, ![128, 128]⟩
abbrev S128 : Shape := ⟨1, ![128]⟩
abbrev S1x128 : Shape := ⟨2, ![1, 128]⟩
abbrev S256x128 : Shape := ⟨2, ![256, 128]⟩
abbrev S256x1 : Shape := ⟨2, ![256, 1]⟩
abbrev S1 : Shape := ⟨1, ![1]⟩
abbrev S64x128x128 : Shape := ⟨3, ![64, 128, 128]⟩
abbrev S_ : Shape := ⟨0, ![]⟩
abbrev S1x128x128 : Shape := ⟨3, ![1, 128, 128]⟩
abbrev S64x128 : Shape := ⟨2, ![64, 128]⟩
abbrev S64x128x1 : Shape := ⟨3, ![64, 128, 1]⟩
abbrev S64x1x128 : Shape := ⟨3, ![64, 1, 128]⟩
abbrev S1x1x128 : Shape := ⟨3, ![1, 1, 128]⟩
abbrev S64x128x1x128 : Shape := ⟨4, ![64, 128, 1, 128]⟩
abbrev S64x128x128x128 : Shape := ⟨4, ![64, 128, 128, 128]⟩
abbrev S64x1x128x128 : Shape := ⟨4, ![64, 1, 128, 128]⟩
abbrev S64x128x128x256 : Shape := ⟨4, ![64, 128, 128, 256]⟩
abbrev S1x1x1x128 : Shape := ⟨4, ![1, 1, 1, 128]⟩
abbrev S64x1x1x128 : Shape := ⟨4, ![64, 1, 1, 128]⟩
abbrev S64x128x128x1 : Shape := ⟨4, ![64, 128, 128, 1]⟩
abbrev S1x1x1x1 : Shape := ⟨4, ![1, 1, 1, 1]⟩

abbrev nBuf : Space → Nat
  | .hbm => 122
  | .vmem => 0
  | .smem => 0
  | _ => 0

abbrev bufTy : (tb : Table) → Fin (tcTables nBuf tb) → BufTy
  | .hbm, ⟨0, _⟩ => ⟨S64x16384, .f32⟩
  | .hbm, ⟨1, _⟩ => ⟨S64x1, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S256x128, .f32⟩
  | .hbm, ⟨13, _⟩ => ⟨S128, .f32⟩
  | .hbm, ⟨14, _⟩ => ⟨S256x1, .f32⟩
  | .hbm, ⟨15, _⟩ => ⟨S1, .f32⟩
  | .hbm, ⟨16, _⟩ => ⟨S64x128x128, .f32⟩
  | .hbm, ⟨17, _⟩ => ⟨S_, .f32⟩
  | .hbm, ⟨18, _⟩ => ⟨S64x128x128, .f32⟩
  | .hbm, ⟨19, _⟩ => ⟨S64x128x128, .i1⟩
  | .hbm, ⟨20, _⟩ => ⟨S64x128x128, .f32⟩
  | .hbm, ⟨21, _⟩ => ⟨S128x128, .i32⟩
  | .hbm, ⟨22, _⟩ => ⟨S128x128, .i32⟩
  | .hbm, ⟨23, _⟩ => ⟨S_, .i32⟩
  | .hbm, ⟨24, _⟩ => ⟨S128x128, .i32⟩
  | .hbm, ⟨25, _⟩ => ⟨S128x128, .i32⟩
  | .hbm, ⟨26, _⟩ => ⟨S128x128, .i1⟩
  | .hbm, ⟨27, _⟩ => ⟨S128x128, .f32⟩
  | .hbm, ⟨28, _⟩ => ⟨S1x128x128, .f32⟩
  | .hbm, ⟨29, _⟩ => ⟨S64x128x128, .f32⟩
  | .hbm, ⟨30, _⟩ => ⟨S64x128x128, .f32⟩
  | .hbm, ⟨31, _⟩ => ⟨S_, .f32⟩
  | .hbm, ⟨32, _⟩ => ⟨S64x128, .f32⟩
  | .hbm, ⟨33, _⟩ => ⟨S_, .f32⟩
  | .hbm, ⟨34, _⟩ => ⟨S64x128, .f32⟩
  | .hbm, ⟨35, _⟩ => ⟨S64x128, .i1⟩
  | .hbm, ⟨36, _⟩ => ⟨S64x128, .f32⟩
  | .hbm, ⟨37, _⟩ => ⟨S_, .f32⟩
  | .hbm, ⟨38, _⟩ => ⟨S64x128, .f32⟩
  | .hbm, ⟨39, _⟩ => ⟨S64x128, .f32⟩
  | .hbm, ⟨40, _⟩ => ⟨S_, .f32⟩
  | .hbm, ⟨41, _⟩ => ⟨S_, .f32⟩
  | .hbm, ⟨42, _⟩ => ⟨S64x128, .f32⟩
  | .hbm, ⟨43, _⟩ => ⟨S64x128, .f32⟩
  | .hbm, ⟨44, _⟩ => ⟨S64x128x1, .f32⟩
  | .hbm, ⟨45, _⟩ => ⟨S64x128x128, .f32⟩
  | .hbm, ⟨46, _⟩ => ⟨S64x128x128, .f32⟩
  | .hbm, ⟨47, _⟩ => ⟨S64x1x128, .f32⟩
  | .hbm, ⟨48, _⟩ => ⟨S64x128x128, .f32⟩
  | .hbm, ⟨49, _⟩ => ⟨S64x128x128, .f32⟩
  | .hbm, ⟨50, _⟩ => ⟨S128x128, .i32⟩
  | .hbm, ⟨51, _⟩ => ⟨S128x128, .i32⟩
  | .hbm, ⟨52, _⟩ => ⟨S_, .i32⟩
  | .hbm, ⟨53, _⟩ => ⟨S128x128, .i32⟩
  | .hbm, ⟨54, _⟩ => ⟨S128x128, .i32⟩
  | .hbm, ⟨55, _⟩ => ⟨S128x128, .i1⟩
  | .hbm, ⟨56, _⟩ => ⟨S128x128, .f32⟩
  | .hbm, ⟨57, _⟩ => ⟨S1x128x128, .f32⟩
  | .hbm, ⟨58, _⟩ => ⟨S64x128x128, .f32⟩
  | .hbm, ⟨59, _⟩ => ⟨S64x128, .f32⟩
  | .hbm, ⟨60, _⟩ => ⟨S1x128, .f32⟩
  | .hbm, ⟨61, _⟩ => ⟨S64x128, .f32⟩
  | .hbm, ⟨62, _⟩ => ⟨S64x128, .f32⟩
  | .hbm, ⟨63, _⟩ => ⟨S64x128, .f32⟩
  | .hbm, ⟨64, _⟩ => ⟨S64x128, .f32⟩
  | .hbm, ⟨65, _⟩ => ⟨S_, .f32⟩
  | .hbm, ⟨66, _⟩ => ⟨S64x128, .f32⟩
  | .hbm, ⟨67, _⟩ => ⟨S64x128, .f32⟩
  | .hbm, ⟨68, _⟩ => ⟨S64x128, .f32⟩
  | .hbm, ⟨69, _⟩ => ⟨S_, .f32⟩
  | .hbm, ⟨70, _⟩ => ⟨S64x128, .f32⟩
  | .hbm, ⟨71, _⟩ => ⟨S64x128, .f32⟩
  | .hbm, ⟨72, _⟩ => ⟨S64x128, .f32⟩
  | .hbm, ⟨73, _⟩ => ⟨S_, .f32⟩
  | .hbm, ⟨74, _⟩ => ⟨S64x128, .f32⟩
  | .hbm, ⟨75, _⟩ => ⟨S64x128, .f32⟩
  | .hbm, ⟨76, _⟩ => ⟨S_, .f32⟩
  | .hbm, ⟨77, _⟩ => ⟨S64x128, .f32⟩
  | .hbm, ⟨78, _⟩ => ⟨S64x128, .f32⟩
  | .hbm, ⟨79, _⟩ => ⟨S64x128, .f32⟩
  | .hbm, ⟨80, _⟩ => ⟨S64x128, .f32⟩
  | .hbm, ⟨81, _⟩ => ⟨S1x128, .f32⟩
  | .hbm, ⟨82, _⟩ => ⟨S64x128, .f32⟩
  | .hbm, ⟨83, _⟩ => ⟨S64x128, .f32⟩
  | .hbm, ⟨84, _⟩ => ⟨S64x128x128, .f32⟩
  | .hbm, ⟨85, _⟩ => ⟨S64x128x128, .f32⟩
  | .hbm, ⟨86, _⟩ => ⟨S1x1x128, .f32⟩
  | .hbm, ⟨87, _⟩ => ⟨S64x128x128, .f32⟩
  | .hbm, ⟨88, _⟩ => ⟨S64x128x128, .f32⟩
  | .hbm, ⟨89, _⟩ => ⟨S_, .f32⟩
  | .hbm, ⟨90, _⟩ => ⟨S64x128x128, .f32⟩
  | .hbm, ⟨91, _⟩ => ⟨S64x128x128, .f32⟩
  | .hbm, ⟨92, _⟩ => ⟨S64x128x128, .f32⟩
  | .hbm, ⟨93, _⟩ => ⟨S64x128x128, .f32⟩
  | .hbm, ⟨94, _⟩ => ⟨S1x1x128, .f32⟩
  | .hbm, ⟨95, _⟩ => ⟨S64x128x128, .f32⟩
  | .hbm, ⟨96, _⟩ => ⟨S64x128x128, .f32⟩
  | .hbm, ⟨97, _⟩ => ⟨S_, .f32⟩
  | .hbm, ⟨98, _⟩ => ⟨S64x128x128, .f32⟩
  | .hbm, ⟨99, _⟩ => ⟨S64x128x128, .f32⟩
  | .hbm, ⟨100, _⟩ => ⟨S64x128x128, .f32⟩
  | .hbm, ⟨101, _⟩ => ⟨S64x128x128, .f32⟩
  | .hbm, ⟨102, _⟩ => ⟨S1x1x128, .f32⟩
  | .hbm, ⟨103, _⟩ => ⟨S64x128x128, .f32⟩
  | .hbm, ⟨104, _⟩ => ⟨S64x128x128, .f32⟩
  | .hbm, ⟨105, _⟩ => ⟨S64x128x1x128, .f32⟩
  | .hbm, ⟨106, _⟩ => ⟨S64x128x128x128, .f32⟩
  | .hbm, ⟨107, _⟩ => ⟨S64x1x128x128, .f32⟩
  | .hbm, ⟨108, _⟩ => ⟨S64x128x128x128, .f32⟩
  | .hbm, ⟨109, _⟩ => ⟨S64x128x128x256, .f32⟩
  | .hbm, ⟨110, _⟩ => ⟨S64x128x128x128, .f32⟩
  | .hbm, ⟨111, _⟩ => ⟨S1x1x1x128, .f32⟩
  | .hbm, ⟨112, _⟩ => ⟨S64x128x128x128, .f32⟩
  | .hbm, ⟨113, _⟩ => ⟨S64x128x128x128, .f32⟩
  | .hbm, ⟨114, _⟩ => ⟨S64x1x1x128, .f32⟩
  | .hbm, ⟨115, _⟩ => ⟨S64x128x128x128, .f32⟩
  | .hbm, ⟨116, _⟩ => ⟨S64x128x128x256, .f32⟩
  | .hbm, ⟨117, _⟩ => ⟨S64x128x128x1, .f32⟩
  | .hbm, ⟨118, _⟩ => ⟨S1x1x1x1, .f32⟩
  | .hbm, ⟨119, _⟩ => ⟨S64x128x128x1, .f32⟩
  | .hbm, ⟨120, _⟩ => ⟨S64x128x128x1, .f32⟩
  | .hbm, ⟨121, _⟩ => ⟨S64x128x128, .f32⟩
  | _, _ => ⟨S64x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_c : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_4 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_6 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_7 : Ref sig .tc := ⟨.hbm, 73, rfl⟩
abbrev main_v46 : Ref sig .tc := ⟨.hbm, 74, rfl⟩
abbrev main_v47 : Ref sig .tc := ⟨.hbm, 75, rfl⟩
abbrev main_cst_8 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_call1_cst : Ref sig .tc := ⟨.hbm, 89, rfl⟩
abbrev main_call1_v0 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_call2_cst : Ref sig .tc := ⟨.hbm, 97, rfl⟩
abbrev main_call2_v0 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩

abbrev nD : Nat := 1
abbrev τ : Topo := Topo.v7x

variable {F : FTy → Type} [FloatOps F]

class Facts₀ : Prop where
  shapeCasts_S64x16384_S64x128x128 : S64x16384.ShapeCasts S64x128x128
  bcast_S_S64x128x128 : S_.BroadcastsInDim S64x128x128 (![] : Fin 0 → Fin S64x128x128.rank)
  bcast_S_S128x128 : S_.BroadcastsInDim S128x128 (![] : Fin 0 → Fin S128x128.rank)
  bcast_S128x128_S1x128x128_1_2 : S128x128.BroadcastsInDim S1x128x128 (![1, 2] : Fin 2 → Fin S1x128x128.rank)
  bcast_S1x128x128_S64x128x128_0_1_2 : S1x128x128.BroadcastsInDim S64x128x128 (![0, 1, 2] : Fin 3 → Fin S64x128x128.rank)
  reducesTo_S64x128x128_S64x128_d2 : S64x128x128.ReducesTo [2] S64x128
  h_S_ : 0 < S_.numel
  bcast_S_S64x128 : S_.BroadcastsInDim S64x128 (![] : Fin 0 → Fin S64x128.rank)
  bcast_S64x128_S64x128x1_0_1 : S64x128.BroadcastsInDim S64x128x1 (![0, 1] : Fin 2 → Fin S64x128x1.rank)
  bcast_S64x128x1_S64x128x128_0_1_2 : S64x128x1.BroadcastsInDim S64x128x128 (![0, 1, 2] : Fin 3 → Fin S64x128x128.rank)
  bcast_S64x128_S64x1x128_0_2 : S64x128.BroadcastsInDim S64x1x128 (![0, 2] : Fin 2 → Fin S64x1x128.rank)
  bcast_S64x1x128_S64x128x128_0_1_2 : S64x1x128.BroadcastsInDim S64x128x128 (![0, 1, 2] : Fin 3 → Fin S64x128x128.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S128_S1x1x128_2 : S128.BroadcastsInDim S1x1x128 (![2] : Fin 1 → Fin S1x1x128.rank)
  bcast_S1x1x128_S64x128x128_0_1_2 : S1x1x128.BroadcastsInDim S64x128x128 (![0, 1, 2] : Fin 3 → Fin S64x128x128.rank)
  bcast_S64x128x128_S64x128x1x128_0_1_3 : S64x128x128.BroadcastsInDim S64x128x1x128 (![0, 1, 3] : Fin 3 → Fin S64x128x1x128.rank)
  bcast_S64x128x1x128_S64x128x128x128_0_1_2_3 : S64x128x1x128.BroadcastsInDim S64x128x128x128 (![0, 1, 2, 3] : Fin 4 → Fin S64x128x128x128.rank)
  bcast_S64x128x128_S64x1x128x128_0_2_3 : S64x128x128.BroadcastsInDim S64x1x128x128 (![0, 2, 3] : Fin 3 → Fin S64x1x128x128.rank)
  bcast_S64x1x128x128_S64x128x128x128_0_1_2_3 : S64x1x128x128.BroadcastsInDim S64x128x128x128 (![0, 1, 2, 3] : Fin 4 → Fin S64x128x128x128.rank)
  concatenates_S64x128x128x128_S64x128x128x128_S64x128x128x256_d3 : Shape.Concatenates [S64x128x128x128, S64x128x128x128] S64x128x128x256 3
  bcast_S128_S1x1x1x128_3 : S128.BroadcastsInDim S1x1x1x128 (![3] : Fin 1 → Fin S1x1x1x128.rank)
  bcast_S1x1x1x128_S64x128x128x128_0_1_2_3 : S1x1x1x128.BroadcastsInDim S64x128x128x128 (![0, 1, 2, 3] : Fin 4 → Fin S64x128x128x128.rank)
  bcast_S64x128_S64x1x1x128_0_3 : S64x128.BroadcastsInDim S64x1x1x128 (![0, 3] : Fin 2 → Fin S64x1x1x128.rank)
  bcast_S64x1x1x128_S64x128x128x128_0_1_2_3 : S64x1x1x128.BroadcastsInDim S64x128x128x128 (![0, 1, 2, 3] : Fin 4 → Fin S64x128x128x128.rank)
  bcast_S1_S1x1x1x1_3 : S1.BroadcastsInDim S1x1x1x1 (![3] : Fin 1 → Fin S1x1x1x1.rank)
  bcast_S1x1x1x1_S64x128x128x1_0_1_2_3 : S1x1x1x1.BroadcastsInDim S64x128x128x1 (![0, 1, 2, 3] : Fin 4 → Fin S64x128x128x1.rank)
  shapeCasts_S64x128x128x1_S64x128x128 : S64x128x128x1.ShapeCasts S64x128x128
  dot_S64x1_S1x128_S64x128_1_0_0_1_n_n_wf : DotDims.WF S64x1 S1x128 S64x128 [1] [0] [0] [1] [] []
  dot_S64x128_S128x128_S64x128_1_0_0_1_n_n_wf : DotDims.WF S64x128 S128x128 S64x128 [1] [0] [0] [1] [] []
  dot_S64x128x128_S128x128_S64x128x128_2_0_01_1_n_n_wf : DotDims.WF S64x128x128 S128x128 S64x128x128 [2] [0] [0, 1] [1] [] []
  dot_S64x128x128_S64x128x128_S64x128x128_2_1_1_2_0_0_wf : DotDims.WF S64x128x128 S64x128x128 S64x128x128 [2] [1] [1] [2] [0] [0]
  dot_S64x128x128x256_S256x128_S64x128x128x128_3_0_012_1_n_n_wf : DotDims.WF S64x128x128x256 S256x128 S64x128x128x128 [3] [0] [0, 1, 2] [1] [] []
  dot_S64x128x128x256_S256x1_S64x128x128x1_3_0_012_1_n_n_wf : DotDims.WF S64x128x128x256 S256x1 S64x128x128x1 [3] [0] [0, 1, 2] [1] [] []

variable [Facts₀]

def dot_S64x1_S1x128_S64x128_1_0_0_1_n_n : DotDims S64x1 S1x128 S64x128 where
  lhsContracting := [1]
  rhsContracting := [0]
  lhsNonContracting := [0]
  rhsNonContracting := [1]
  lhsBatch := []
  rhsBatch := []
  wf := dot_S64x1_S1x128_S64x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128x128_S128x128_S64x128x128_2_0_01_1_n_n : DotDims S64x128x128 S128x128 S64x128x128 where
  lhsContracting := [2]
  rhsContracting := [0]
  lhsNonContracting := [0, 1]
  rhsNonContracting := [1]
  lhsBatch := []
  rhsBatch := []
  wf := dot_S64x128x128_S128x128_S64x128x128_2_0_01_1_n_n_wf
def dot_S64x128x128_S64x128x128_S64x128x128_2_1_1_2_0_0 : DotDims S64x128x128 S64x128x128 S64x128x128 where
  lhsContracting := [2]
  rhsContracting := [1]
  lhsNonContracting := [1]
  rhsNonContracting := [2]
  lhsBatch := [0]
  rhsBatch := [0]
  wf := dot_S64x128x128_S64x128x128_S64x128x128_2_1_1_2_0_0_wf
def dot_S64x128x128x256_S256x128_S64x128x128x128_3_0_012_1_n_n : DotDims S64x128x128x256 S256x128 S64x128x128x128 where
  lhsContracting := [3]
  rhsContracting := [0]
  lhsNonContracting := [0, 1, 2]
  rhsNonContracting := [1]
  lhsBatch := []
  rhsBatch := []
  wf := dot_S64x128x128x256_S256x128_S64x128x128x128_3_0_012_1_n_n_wf
def dot_S64x128x128x256_S256x1_S64x128x128x1_3_0_012_1_n_n : DotDims S64x128x128x256 S256x1 S64x128x128x1 where
  lhsContracting := [3]
  rhsContracting := [0]
  lhsNonContracting := [0, 1, 2]
  rhsNonContracting := [1]
  lhsBatch := []
  rhsBatch := []
  wf := dot_S64x128x128x256_S256x1_S64x128x128x1_3_0_012_1_n_n_wf

class Facts : Prop extends Facts₀ where

variable [Facts]
-- ==== Proof.Spec.lean ====
/-
  The function both programs compute, for one graph, over the extended reals.

  A graph is a 128 × 128 table `A` of edge weights; an entry is an edge when it is not zero. With self loops added,
  `ahat n m = [A n m ≠ 0] + [n = m]`, the degree of node `n` is the row sum of `ahat`, and the normalized adjacency is
  `adj n m = deg(n)^(-1/2) · ahat n m · deg(m)^(-1/2)`. Three graph convolutions `adj · (P · W) + b` follow (the first on
  the identity features, so `P · W = W`; the first two followed by `max · 0`), a two-layer perceptron with the tanh form of
  GELU embeds the graph's time stamp, and every ordered pair of nodes `(n, m)` is scored by a two-layer linear map of
  `[h n, h m]` and the time embedding. Because no nonlinearity sits between those two layers, the score is
  `a n + c m + d` with `a = h · (We0_lo · w)`, `c = h · (We0_hi · w)`, `d = te · w' + be0 · w + be1` (`outK`); written layer by layer
  it is `outR`. The two agree on real entries: `SpecLaws.lean`.
-/
import Idealize.ShloMosaic.PureOps.Ideal

noncomputable section

open scoped BigOperators

namespace Cert.GcnEdge

open Idealize.ShloMosaic

/-- Row `f` of the first 128 rows of a 256-row table. -/
def lo (f : Fin 128) : Fin 256 := ⟨f.val, by omega⟩
/-- Row `f` of the last 128 rows of a 256-row table. -/
def hi (f : Fin 128) : Fin 256 := ⟨128 + f.val, by omega⟩

/-- 1 where an entry is an edge (not zero), else 0. -/
def edge (x : EReal) : EReal := if x = 0 then 0 else 1
/-- The identity matrix. -/
def eye (n m : Fin 128) : EReal := if n = m then 1 else 0
/-- Adjacency with self loops. -/
def ahat (A : Fin 128 → Fin 128 → EReal) (n m : Fin 128) : EReal := edge (A n m) + eye n m
/-- A node's degree: its row sum. -/
def deg (A : Fin 128 → Fin 128 → EReal) (n : Fin 128) : EReal := ∑ m : Fin 128, ahat A n m
/-- The degree to the power -1/2. -/
def dinv (A : Fin 128 → Fin 128 → EReal) (n : Fin 128) : EReal := Ideal.rsqrt (deg A n)
/-- The symmetrically normalized adjacency. -/
def adj (A : Fin 128 → Fin 128 → EReal) (n m : Fin 128) : EReal := dinv A n * ahat A n m * dinv A m

/-- One graph convolution of features `P`: `adj · (P · W) + b`. -/
def conv (A P W : Fin 128 → Fin 128 → EReal) (b : Fin 128 → EReal) (n j : Fin 128) : EReal :=
  (∑ k : Fin 128, adj A n k * ∑ l : Fin 128, P k l * W l j) + b j

/-- Layer 1, on identity features. -/
def h1 (A W1 : Fin 128 → Fin 128 → EReal) (b1 : Fin 128 → EReal) (n j : Fin 128) : EReal :=
  max ((∑ k : Fin 128, adj A n k * W1 k j) + b1 j) 0
/-- Layer 2. -/
def h2 (A W1 : Fin 128 → Fin 128 → EReal) (b1 : Fin 128 → EReal) (W2 : Fin 128 → Fin 128 → EReal) (b2 : Fin 128 → EReal)
    (n j : Fin 128) : EReal :=
  max (conv A (h1 A W1 b1) W2 b2 n j) 0
/-- Layer 3 (no activation). -/
def h3 (A W1 : Fin 128 → Fin 128 → EReal) (b1 : Fin 128 → EReal) (W2 : Fin 128 → Fin 128 → EReal) (b2 : Fin 128 → EReal)
    (W3 : Fin 128 → Fin 128 → EReal) (b3 : Fin 128 → EReal) (n j : Fin 128) : EReal :=
  conv A (h2 A W1 b1 W2 b2) W3 b3 n j

/-- The four float literals of the tanh form of GELU, as the binary values their words denote. -/
def c044 : EReal := Ideal.ofBits .f32 0x3D372713#32
def c079 : EReal := Ideal.ofBits .f32 0x3F4C422A#32
def c1 : EReal := Ideal.ofBits .f32 0x3F800000#32
def c05 : EReal := Ideal.ofBits .f32 0x3F000000#32

/-- GELU, tanh form: `x · (½ · (1 + tanh (c · (x + 0.044715 · x³))))`. -/
def gelu (x : EReal) : EReal := x * (c05 * (c1 + Ideal.tanh (c079 * (x + c044 * (x * (x * x))))))

/-- The time embedding of a graph whose time stamp is `t`. -/
def te (t : EReal) (wt1 bt1 : Fin 128 → EReal) (Wt2 : Fin 128 → Fin 128 → EReal) (bt2 : Fin 128 → EReal) (j : Fin 128) : EReal :=
  (∑ k : Fin 128, gelu (t * wt1 k + bt1 k) * Wt2 k j) + bt2 j

/-- The pair score with the two linear layers folded into per-node vectors and a per-graph scalar. -/
def outK (h : Fin 128 → Fin 128 → EReal) (e : Fin 128 → EReal) (We0 : Fin 256 → Fin 128 → EReal) (be0 : Fin 128 → EReal)
    (We1 : Fin 256 → EReal) (be1 : EReal) (n m : Fin 128) : EReal :=
  ((∑ f : Fin 128, h n f * ∑ g : Fin 128, We0 (lo f) g * We1 (lo g))
    + ∑ f : Fin 128, h m f * ∑ g : Fin 128, We0 (hi f) g * We1 (lo g))
  + (((∑ k : Fin 128, e k * We1 (hi k)) + ∑ k : Fin 128, be0 k * We1 (lo k)) + be1)

/-- The pair score layer by layer: the first layer on `[h n, h m]`, the second on its result joined with the time embedding. -/
def outR (h : Fin 128 → Fin 128 → EReal) (e : Fin 128 → EReal) (We0 : Fin 256 → Fin 128 → EReal) (be0 : Fin 128 → EReal)
    (We1 : Fin 256 → EReal) (be1 : EReal) (n m : Fin 128) : EReal :=
  ((∑ g : Fin 128, (((∑ f : Fin 128, h n f * We0 (lo f) g) + ∑ f : Fin 128, h m f * We0 (hi f) g) + be0 g) * We1 (lo g))
    + ∑ g : Fin 128, e g * We1 (hi g))
  + be1

/-- An extended real that is a real number. -/
def IsR (x : EReal) : Prop := ∃ r : ℝ, x = (r : EReal)

end Cert.GcnEdge

end
-- ==== Proof.LibTripleSum.lean ====
/-
  Associativity of a triple product of finite families.

  For real families a(k), b(k, j), c(j) over any finite index types,
      ∑ k, a(k) · (∑ j, b(k, j) · c(j)) = ∑ j, (∑ k, a(k) · b(k, j)) · c(j):
  distribute both products over the inner sums, exchange the two sums, reassociate each term. This is the
  entrywise content of (A · B) · C = A · (B · C) for matrices. The coercion of the reals into the extended reals is
  additive and multiplicative, so it commutes with finite sums, and the same identity holds for extended reals that
  are coercions of reals — the form a proof about finite inputs meets. (With an infinite entry the two sides can
  differ, for instance through a product 0 · ∞ present on one side only.)
-/
import Mathlib.Data.EReal.Basic
import Mathlib.Algebra.BigOperators.Ring.Finset
import Mathlib.Algebra.BigOperators.Group.Finset.Sigma

noncomputable section

open scoped BigOperators

namespace Idealize.ShloMosaic.TripleSum

/-- The coercion of the reals into the extended reals commutes with finite sums. -/
theorem coe_finsetSum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of the triple product over the reals, for arbitrary finite index types. -/
theorem real_sum_assoc {κ ι : Type*} [Fintype κ] [Fintype ι] (a : κ → ℝ) (b : κ → ι → ℝ) (c : ι → ℝ) :
    ∑ k, a k * ∑ j, b k j * c j = ∑ j, (∑ k, a k * b k j) * c j := by
  simp only [Finset.mul_sum, Finset.sum_mul]
  rw [Finset.sum_comm]
  exact Finset.sum_congr rfl fun j _ => Finset.sum_congr rfl fun k _ => (mul_assoc _ _ _).symm

/-- Associativity of the triple product over extended reals that are coercions of reals. -/
theorem ereal_sum_assoc {κ ι : Type*} [Fintype κ] [Fintype ι] (a : κ → ℝ) (b : κ → ι → ℝ) (c : ι → ℝ) :
    ∑ k, (a k : EReal) * ∑ j, (b k j : EReal) * (c j : EReal)
      = ∑ j, (∑ k, (a k : EReal) * (b k j : EReal)) * (c j : EReal) := by
  simp only [← EReal.coe_mul, ← coe_finsetSum]
  exact congrArg _ (real_sum_assoc a b c)

end Idealize.ShloMosaic.TripleSum

end
-- ==== Proof.SpecLaws.lean ====
/-
  Laws of the specification (Spec.lean): every intermediate value is a real number when the weights are, and on real
  entries the folded pair score `outK` equals the layer-by-layer score `outR`.
-/
import proofs.«174631_g79482664780415_cont_9to1_m_1303_2_alg».proof.Proof.Spec
import proofs.«174631_g79482664780415_cont_9to1_m_1303_2_alg».proof.Proof.LibTripleSum

noncomputable section

open scoped BigOperators

namespace Cert.GcnEdge

open Idealize.ShloMosaic

/-! ## Real numbers among the extended reals are closed under the operations used -/

theorem IsR.coe (r : ℝ) : IsR (r : EReal) := ⟨r, rfl⟩
theorem IsR.zero : IsR 0 := ⟨0, rfl⟩
theorem IsR.one : IsR 1 := ⟨1, rfl⟩
theorem IsR.add {x y : EReal} (hx : IsR x) (hy : IsR y) : IsR (x + y) := by
  obtain ⟨a, rfl⟩ := hx
  obtain ⟨b, rfl⟩ := hy
  exact ⟨a + b, (EReal.coe_add a b).symm⟩
theorem IsR.mul {x y : EReal} (hx : IsR x) (hy : IsR y) : IsR (x * y) := by
  obtain ⟨a, rfl⟩ := hx
  obtain ⟨b, rfl⟩ := hy
  exact ⟨a * b, (EReal.coe_mul a b).symm⟩
theorem IsR.max {x y : EReal} (hx : IsR x) (hy : IsR y) : IsR (max x y) := by
  rcases le_total x y with hxy | hxy
  · rw [max_eq_right hxy]; exact hy
  · rw [max_eq_left hxy]; exact hx
theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact IsR.add (h a (Finset.mem_insert_self a s)) (ih fun i hi => h i (Finset.mem_insert_of_mem hi))
theorem IsR.tanh {x : EReal} (hx : IsR x) : IsR (Ideal.tanh x) := by
  obtain ⟨r, rfl⟩ := hx
  exact ⟨Real.tanh r, rfl⟩

/-- A finite f32 word (exponent field not all ones) denotes a real number. -/
theorem isR_ofBits_f32 (w : BitVec 32) (h : (w.extractLsb' 23 8).toNat ≠ 255) : IsR (Ideal.ofBits .f32 w) := by
  show IsR (Ideal.ieee 8 23 w)
  unfold Ideal.ieee
  have h' : ¬ ((w.extractLsb' 23 8).toNat = 2 ^ 8 - 1) := by
    intro hc; exact h (by simpa using hc)
  simp only [if_neg h']
  split_ifs <;> exact ⟨_, rfl⟩

theorem isR_c044 : IsR c044 := isR_ofBits_f32 _ (by decide)
theorem isR_c079 : IsR c079 := isR_ofBits_f32 _ (by decide)
theorem isR_c05 : IsR c05 := isR_ofBits_f32 _ (by decide)
/-- The word of 1.0 denotes 1. -/
theorem c1_eq_one : c1 = 1 := by
  simp [c1, Ideal.ofBits, Ideal.ieee, -EReal.coe_mul]; norm_num

theorem isR_c1 : IsR c1 := c1_eq_one ▸ IsR.one

/-! ## The adjacency -/

theorem isR_edge (x : EReal) : IsR (edge x) := by
  unfold edge; split_ifs
  · exact IsR.zero
  · exact IsR.one
theorem isR_eye (n m : Fin 128) : IsR (eye n m) := by
  unfold eye; split_ifs
  · exact IsR.one
  · exact IsR.zero
theorem isR_ahat (A : Fin 128 → Fin 128 → EReal) (n m : Fin 128) : IsR (ahat A n m) :=
  IsR.add (isR_edge _) (isR_eye _ _)

/-- The edge indicator as the coercion of a real 0 or 1. -/
theorem edge_coe (x : EReal) : edge x = ((if x = 0 then (0 : ℝ) else 1 : ℝ) : EReal) := by
  unfold edge; split_ifs <;> simp
/-- An identity entry as the coercion of a real 1 or 0. -/
theorem eye_coe (n m : Fin 128) : eye n m = ((if n = m then (1 : ℝ) else 0 : ℝ) : EReal) := by
  unfold eye; split_ifs <;> simp

/-- A degree is a real number, at least 1 (the self loop). -/
theorem deg_real (A : Fin 128 → Fin 128 → EReal) (n : Fin 128) : ∃ r : ℝ, deg A n = (r : EReal) ∧ 1 ≤ r := by
  refine ⟨∑ m : Fin 128, ((if A n m = 0 then (0 : ℝ) else 1) + (if n = m then (1 : ℝ) else 0)), ?_, ?_⟩
  · unfold deg ahat
    rw [TripleSum.coe_finsetSum]
    refine Finset.sum_congr rfl fun m _ => ?_
    rw [EReal.coe_add, edge_coe, eye_coe]
  · -- every term is nonnegative, and the term m = n is at least 1
    calc (1 : ℝ) ≤ (if A n n = 0 then (0 : ℝ) else 1) + (if n = n then (1 : ℝ) else 0) := by
          rw [if_pos rfl]; split_ifs <;> norm_num
      _ ≤ _ := Finset.single_le_sum
          (f := fun m : Fin 128 => (if A n m = 0 then (0 : ℝ) else 1) + (if n = m then (1 : ℝ) else 0))
          (fun m _ => by split_ifs <;> norm_num) (Finset.mem_univ n)

/-- On a real `r ≥ 1` the square root is the coercion of the positive real `√r`. -/
theorem sqrt_coe_of_one_le {r : ℝ} (hr : 1 ≤ r) : Ideal.sqrt (r : EReal) = ((Real.sqrt r : ℝ) : EReal) := by
  show (if r < 0 then ⊥ else ((Real.sqrt r : ℝ) : EReal)) = _
  rw [if_neg (by linarith)]
/-- On a real `r ≥ 1` the power -1/2 is the coercion of the real `(√r)⁻¹`. -/
theorem rsqrt_coe_of_one_le {r : ℝ} (hr : 1 ≤ r) : Ideal.rsqrt (r : EReal) = (((Real.sqrt r)⁻¹ : ℝ) : EReal) := by
  show (if r < 0 then ⊥ else if r = 0 then ⊤ else (((Real.sqrt r)⁻¹ : ℝ) : EReal)) = _
  rw [if_neg (by linarith), if_neg (by linarith)]

/-- On a real `d ≥ 1`: `1 / √d` (the quotient by the square root) is `d^(-1/2)`. -/
theorem div_sqrt_eq_rsqrt (d : EReal) (hd : ∃ r : ℝ, d = (r : EReal) ∧ 1 ≤ r) :
    Ideal.div 1 (Ideal.sqrt d) = Ideal.rsqrt d := by
  obtain ⟨r, rfl, hr⟩ := hd
  have hpos : 0 < Real.sqrt r := Real.sqrt_pos.mpr (by linarith)
  have hne : ((Real.sqrt r : ℝ) : EReal) ≠ 0 := by
    intro hc; exact hpos.ne' (by exact_mod_cast hc)
  rw [sqrt_coe_of_one_le hr, rsqrt_coe_of_one_le hr]
  unfold Ideal.div
  rw [if_neg hne, one_mul, EReal.coe_inv]
/-- A real `d ≥ 1` compares greater than zero. -/
theorem cmp_ogt_zero (d : EReal) (hd : ∃ r : ℝ, d = (r : EReal) ∧ 1 ≤ r) : Ideal.cmp .ogt d 0 = 1#1 := by
  obtain ⟨r, rfl, hr⟩ := hd
  have hpos : (0 : EReal) < (r : EReal) := EReal.coe_pos.mpr (by linarith)
  show BitVec.ofBool (decide ((0 : EReal) < (r : EReal))) = 1#1
  rw [decide_eq_true hpos]; rfl

theorem isR_dinv (A : Fin 128 → Fin 128 → EReal) (n : Fin 128) : IsR (dinv A n) := by
  obtain ⟨r, hr, h1⟩ := deg_real A n
  unfold dinv
  rw [hr, rsqrt_coe_of_one_le h1]
  exact ⟨_, rfl⟩
theorem isR_adj (A : Fin 128 → Fin 128 → EReal) (n m : Fin 128) : IsR (adj A n m) :=
  IsR.mul (IsR.mul (isR_dinv A n) (isR_ahat A n m)) (isR_dinv A m)

/-- The identity features drop out of the first layer: `∑ k, [n = k] · W k j = W n j` (no finiteness needed: `0 · x = 0`). -/
theorem eye_collapse (W : Fin 128 → Fin 128 → EReal) (n j : Fin 128) : ∑ k : Fin 128, eye n k * W k j = W n j := by
  rw [Finset.sum_eq_single n]
  · unfold eye; rw [if_pos rfl, one_mul]
  · intro k _ hk
    unfold eye; rw [if_neg (Ne.symm hk), zero_mul]
  · intro hn; exact absurd (Finset.mem_univ n) hn

/-! ## The layers and the time embedding are real on real weights -/

theorem isR_conv {A P W : Fin 128 → Fin 128 → EReal} {b : Fin 128 → EReal} (hP : ∀ k l, IsR (P k l)) (hW : ∀ l j, IsR (W l j))
    (hb : ∀ j, IsR (b j)) (n j : Fin 128) : IsR (conv A P W b n j) :=
  IsR.add (IsR.sum _ _ fun k _ => IsR.mul (isR_adj A n k) (IsR.sum _ _ fun l _ => IsR.mul (hP k l) (hW l j))) (hb j)

theorem isR_h1 {A W1 : Fin 128 → Fin 128 → EReal} {b1 : Fin 128 → EReal}
    (hW1 : ∀ k j, IsR (W1 k j)) (hb1 : ∀ j, IsR (b1 j)) (n j : Fin 128) : IsR (h1 A W1 b1 n j) :=
  IsR.max (IsR.add (IsR.sum _ _ fun k _ => IsR.mul (isR_adj A n k) (hW1 k j)) (hb1 j)) IsR.zero

theorem isR_h2 {A W1 W2 : Fin 128 → Fin 128 → EReal} {b1 b2 : Fin 128 → EReal}
    (hW1 : ∀ k j, IsR (W1 k j)) (hb1 : ∀ j, IsR (b1 j)) (hW2 : ∀ k j, IsR (W2 k j)) (hb2 : ∀ j, IsR (b2 j))
    (n j : Fin 128) : IsR (h2 A W1 b1 W2 b2 n j) :=
  IsR.max (isR_conv (isR_h1 hW1 hb1) hW2 hb2 n j) IsR.zero

theorem isR_h3 {A W1 W2 W3 : Fin 128 → Fin 128 → EReal} {b1 b2 b3 : Fin 128 → EReal}
    (hW1 : ∀ k j, IsR (W1 k j)) (hb1 : ∀ j, IsR (b1 j)) (hW2 : ∀ k j, IsR (W2 k j)) (hb2 : ∀ j, IsR (b2 j))
    (hW3 : ∀ k j, IsR (W3 k j)) (hb3 : ∀ j, IsR (b3 j)) (n j : Fin 128) : IsR (h3 A W1 b1 W2 b2 W3 b3 n j) :=
  isR_conv (isR_h2 hW1 hb1 hW2 hb2) hW3 hb3 n j

theorem isR_gelu {x : EReal} (hx : IsR x) : IsR (gelu x) :=
  IsR.mul hx (IsR.mul isR_c05 (IsR.add isR_c1
    (IsR.tanh (IsR.mul isR_c079 (IsR.add hx (IsR.mul isR_c044 (IsR.mul hx (IsR.mul hx hx))))))))

theorem isR_te {t : EReal} {wt1 bt1 bt2 : Fin 128 → EReal} {Wt2 : Fin 128 → Fin 128 → EReal}
    (ht : IsR t) (hwt1 : ∀ k, IsR (wt1 k)) (hbt1 : ∀ k, IsR (bt1 k)) (hWt2 : ∀ k j, IsR (Wt2 k j)) (hbt2 : ∀ j, IsR (bt2 j))
    (j : Fin 128) : IsR (te t wt1 bt1 Wt2 bt2 j) :=
  IsR.add (IsR.sum _ _ fun k _ => IsR.mul (isR_gelu (IsR.add (IsR.mul ht (hwt1 k)) (hbt1 k))) (hWt2 k j)) (hbt2 j)

/-! ## The pair score: folded = layer by layer, on real entries -/

theorem outK_eq_outR {h : Fin 128 → Fin 128 → EReal} {e : Fin 128 → EReal} {We0 : Fin 256 → Fin 128 → EReal} {be0 : Fin 128 → EReal}
    {We1 : Fin 256 → EReal} {be1 : EReal}
    (hh : ∀ n f, IsR (h n f)) (he : ∀ k, IsR (e k)) (hWe0 : ∀ f g, IsR (We0 f g)) (hbe0 : ∀ g, IsR (be0 g))
    (hWe1 : ∀ g, IsR (We1 g)) (hbe1 : IsR be1) (n m : Fin 128) :
    outK h e We0 be0 We1 be1 n m = outR h e We0 be0 We1 be1 n m := by
  choose H hH using hh
  choose E hE using he
  choose V0 hV0 using hWe0
  choose B0 hB0 using hbe0
  choose V1 hV1 using hWe1
  obtain ⟨c, rfl⟩ := hbe1
  obtain rfl : h = fun n f => ((H n f : ℝ) : EReal) := funext fun n => funext fun f => hH n f
  obtain rfl : e = fun k => ((E k : ℝ) : EReal) := funext hE
  obtain rfl : We0 = fun f g => ((V0 f g : ℝ) : EReal) := funext fun f => funext fun g => hV0 f g
  obtain rfl : be0 = fun g => ((B0 g : ℝ) : EReal) := funext hB0
  obtain rfl : We1 = fun g => ((V1 g : ℝ) : EReal) := funext hV1
  unfold outK outR
  simp only [← EReal.coe_mul, ← EReal.coe_add, ← TripleSum.coe_finsetSum]
  refine congrArg _ ?_
  -- the real identity: reassociate the two triple products, distribute the outer product over the three summands
  rw [TripleSum.real_sum_assoc (H n) (fun f g => V0 (lo f) g) (fun g => V1 (lo g)),
    TripleSum.real_sum_assoc (H m) (fun f g => V0 (hi f) g) (fun g => V1 (lo g))]
  simp only [add_mul, Finset.sum_add_distrib]
  ring

end Cert.GcnEdge

end
-- ==== Proof.Scalars.lean ====
/-
  The two programs spell the adjacency's entries differently; both spellings denote the specification's entries.

  An entry of the identity is a comparison of two coordinates below 128 as 32-bit words, converted to a float: through a
  zero extension and a signed conversion in one program, through an unsigned conversion (after adding the word 0) in the
  other. An edge indicator is the comparison "not equal to zero" of an extended real (there is no NaN, so the ordered and
  the unordered comparison agree), converted the same two ways. All four are 1 or 0.
-/
import proofs.«174631_g79482664780415_cont_9to1_m_1303_2_alg».proof.Proof.Spec
import Idealize.ShloMosaic.PureOps.Ideal.Laws
import Idealize.ShloMosaic.Lib.Pipeline.Value
import Idealize.ShloMosaic.Lib.ValueIdx

noncomputable section

namespace Cert.GcnEdge

open Idealize.ShloMosaic Idealize.ShloMosaic.ValueIdx

/-- Two coordinates below 128 are equal as 32-bit words exactly when they are equal: both are below `2^32`. -/
theorem word_beq (n m : Fin 128) : (BitVec.ofNat 32 n.val == BitVec.ofNat 32 m.val) = decide (n = m) := by
  by_cases h : n = m
  · subst h; simp
  · have hne : BitVec.ofNat 32 n.val ≠ BitVec.ofNat 32 m.val := by
      intro hc
      have hv := congrArg BitVec.toNat hc
      simp only [BitVec.toNat_ofNat] at hv
      have hn := n.isLt
      have hm := m.isLt
      exact h (Fin.ext (by omega))
    simp [h, hne]

/-- The comparison of two coordinates as words is the one-bit word of `n = m`. -/
theorem cmpi_eq_word (n m : Fin 128) :
    IntOp.cmpi .eq (BitVec.ofNat 32 n.val) (BitVec.ofNat 32 m.val) = BitVec.ofBool (decide (n = m)) := by
  show BitVec.ofBool (BitVec.ofNat 32 n.val == BitVec.ofNat 32 m.val) = _
  rw [word_beq]

/-- The one-bit words 1 and 0, zero-extended and read as signed integers, or read as naturals, are 1 and 0. -/
theorem toInt_setWidth_ofBool_true : ((BitVec.ofBool true).setWidth 32).toInt = 1 := by decide
theorem toInt_setWidth_ofBool_false : ((BitVec.ofBool false).setWidth 32).toInt = 0 := by decide
theorem toNat_ofBool_true : (BitVec.ofBool true).toNat = 1 := by decide
theorem toNat_ofBool_false : (BitVec.ofBool false).toNat = 0 := by decide

/-- The identity's entry: coordinates compared as words, zero-extended, converted as a signed integer. -/
theorem eye_kernel (n m : Fin 128) :
    FloatOps.sitofp (F := Ideal) .f32 ((IntOp.cmpi .eq (BitVec.ofNat 32 n.val) (BitVec.ofNat 32 m.val)).setWidth 32) = eye n m := by
  show (((((IntOp.cmpi .eq (BitVec.ofNat 32 n.val) (BitVec.ofNat 32 m.val)).setWidth 32).toInt : ℤ) : ℝ) : EReal) = eye n m
  rw [cmpi_eq_word]
  unfold eye
  by_cases h : n = m
  · rw [if_pos h, decide_eq_true h, toInt_setWidth_ofBool_true]; simp
  · rw [if_neg h, decide_eq_false h, toInt_setWidth_ofBool_false]; simp

/-- The identity's entry: the first coordinate plus the word 0, compared, converted as an unsigned integer. -/
theorem eye_host (n m : Fin 128) :
    FloatOps.uitofp (F := Ideal) .f32 (IntOp.cmpi .eq (IntOp.addi (BitVec.ofNat 32 n.val) 0#32) (BitVec.ofNat 32 m.val)) = eye n m := by
  show ((((IntOp.cmpi .eq (BitVec.ofNat 32 n.val + 0#32) (BitVec.ofNat 32 m.val)).toNat : ℕ) : ℝ) : EReal) = eye n m
  rw [BitVec.add_zero, cmpi_eq_word]
  unfold eye
  by_cases h : n = m
  · rw [if_pos h, decide_eq_true h, toNat_ofBool_true]; simp
  · rw [if_neg h, decide_eq_false h, toNat_ofBool_false]; simp

/-- The edge indicator: ordered "not equal" to the zero word, zero-extended, converted as a signed integer. -/
theorem edge_kernel (x : EReal) :
    FloatOps.sitofp (F := Ideal) .f32 ((FloatOps.cmpf (F := Ideal) (φ := .f32) .one x (Ideal.ofBits .f32 0x00000000#32)).setWidth 32) = edge x := by
  rw [Ideal.cmpf_def, Ideal.ofBits_zero_f32]
  show (((((BitVec.ofBool (decide (x ≠ 0))).setWidth 32).toInt : ℤ) : ℝ) : EReal) = edge x
  unfold edge
  by_cases h : x = 0
  · rw [if_pos h, decide_eq_false (not_not.mpr h), toInt_setWidth_ofBool_false]; simp
  · rw [if_neg h, decide_eq_true h, toInt_setWidth_ofBool_true]; simp

/-- The edge indicator: unordered "not equal" to the zero word, converted as an unsigned integer. -/
theorem edge_host (x : EReal) :
    FloatOps.uitofp (F := Ideal) .f32 (FloatOps.cmpf (F := Ideal) (φ := .f32) .une x (Ideal.ofBits .f32 0x00000000#32)) = edge x := by
  rw [Ideal.cmpf_def, Ideal.ofBits_zero_f32]
  show ((((BitVec.ofBool (decide (x ≠ 0))).toNat : ℕ) : ℝ) : EReal) = edge x
  unfold edge
  by_cases h : x = 0
  · rw [if_pos h, decide_eq_false (not_not.mpr h), toNat_ofBool_false]; simp
  · rw [if_neg h, decide_eq_true h, toNat_ofBool_true]; simp

/-- An `[a, 1]` column cast to a `[1, a]` row reads, at `(u, i)`, the column's entry of row `i`. -/
theorem shapeCast_a1_1a_apply {α : Type} {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    -- both row-major positions are `i`: `i · 1 + 0` in the column, `0 · a + i` in the row
    have hu : u.val = 0 := by omega
    rw [Shape.rowMajor_val_two, Shape.rowMajor_val_two]
    show i.val * 1 + 0 = u.val * a + i.val
    rw [hu, Nat.mul_one, Nat.add_zero, Nat.zero_mul, Nat.zero_add])

end Cert.GcnEdge

end
-- ==== Proof.SpecArrays.lean ====
/-
  The specification on the sixteen argument arrays.

  The first argument is a 64 × 16384 table: row `b` holds graph `b`'s 128 × 128 edge weights row-major, so the weight of
  the pair (a, c) is at column 128 a + c. The second argument holds the 64 time stamps as a column. The others are the
  weights (matrices read at (k, l)) and biases (vectors read at l), the time embedding's first layer a 1 × 128 row, the
  second scoring layer a 256 × 1 column and its bias a single entry. `GK` is the folded pair score of graph `b`, `GR` the
  layer-by-layer one; they agree when every entry of every argument but the first is a real number.
-/
import proofs.«174631_g79482664780415_cont_9to1_m_1303_2_alg».proof.Proof.Spec
import proofs.«174631_g79482664780415_cont_9to1_m_1303_2_alg».proof.Proof.SpecLaws
import Idealize.ShloMosaic.Lib.ValueIdx

noncomputable section

namespace Cert.GcnEdge

open Idealize.ShloMosaic Idealize.ShloMosaic.ValueIdx

/-- Extended-real arrays of rank 2 and rank 1. -/
abbrev Arr2 (n0 n1 : ℕ) : Type := (⟨2, ![n0, n1]⟩ : Shape).Idx → EReal
abbrev Arr1 (n : ℕ) : Type := (⟨1, ![n]⟩ : Shape).Idx → EReal

/-- Graph `b`'s edge weight of the pair `(a, c)`. -/
def graphOf (X : Arr2 64 16384) (b : Fin 64) (a c : Fin 128) : EReal :=
  X (ix2 b ⟨a.val * 128 + c.val, by have := a.isLt; have := c.isLt; omega⟩)
/-- A matrix by coordinates. -/
def mat {n0 n1 : ℕ} (W : Arr2 n0 n1) (k : Fin n0) (l : Fin n1) : EReal := W (ix2 k l)
/-- A vector by its coordinate. -/
def vec {n : ℕ} (B : Arr1 n) (l : Fin n) : EReal := B (ix1 l)
/-- A one-row matrix as a vector. -/
def rowv {n : ℕ} (W : Arr2 1 n) (l : Fin n) : EReal := W (ix2 (0 : Fin 1) l)
/-- A one-column matrix as a vector. -/
def colv {n : ℕ} (W : Arr2 n 1) (l : Fin n) : EReal := W (ix2 l (0 : Fin 1))

/-- Graph `b`'s node features after the three convolutions. -/
def h3Of (X : Arr2 64 16384) (W1 : Arr2 128 128) (B1 : Arr1 128) (W2 : Arr2 128 128) (B2 : Arr1 128) (W3 : Arr2 128 128)
    (B3 : Arr1 128) (b : Fin 64) : Fin 128 → Fin 128 → EReal :=
  h3 (graphOf X b) (mat W1) (vec B1) (mat W2) (vec B2) (mat W3) (vec B3)

/-- Graph `b`'s time embedding. -/
def teOf (T : Arr2 64 1) (Wt1 : Arr2 1 128) (Bt1 : Arr1 128) (Wt2 : Arr2 128 128) (Bt2 : Arr1 128) (b : Fin 64) : Fin 128 → EReal :=
  te (colv T b) (rowv Wt1) (vec Bt1) (mat Wt2) (vec Bt2)

/-- The folded pair score of graph `b` at `(n, m)`. -/
def GK (X : Arr2 64 16384) (T : Arr2 64 1) (W1 : Arr2 128 128) (B1 : Arr1 128) (W2 : Arr2 128 128) (B2 : Arr1 128)
    (W3 : Arr2 128 128) (B3 : Arr1 128) (Wt1 : Arr2 1 128) (Bt1 : Arr1 128) (Wt2 : Arr2 128 128) (Bt2 : Arr1 128)
    (We0 : Arr2 256 128) (Be0 : Arr1 128) (We1 : Arr2 256 1) (Be1 : Arr1 1) (b : Fin 64) (n m : Fin 128) : EReal :=
  outK (h3Of X W1 B1 W2 B2 W3 B3 b) (teOf T Wt1 Bt1 Wt2 Bt2 b) (mat We0) (vec Be0) (colv We1) (vec Be1 (0 : Fin 1)) n m

/-- The layer-by-layer pair score of graph `b` at `(n, m)`. -/
def GR (X : Arr2 64 16384) (T : Arr2 64 1) (W1 : Arr2 128 128) (B1 : Arr1 128) (W2 : Arr2 128 128) (B2 : Arr1 128)
    (W3 : Arr2 128 128) (B3 : Arr1 128) (Wt1 : Arr2 1 128) (Bt1 : Arr1 128) (Wt2 : Arr2 128 128) (Bt2 : Arr1 128)
    (We0 : Arr2 256 128) (Be0 : Arr1 128) (We1 : Arr2 256 1) (Be1 : Arr1 1) (b : Fin 64) (n m : Fin 128) : EReal :=
  outR (h3Of X W1 B1 W2 B2 W3 B3 b) (teOf T Wt1 Bt1 Wt2 Bt2 b) (mat We0) (vec Be0) (colv We1) (vec Be1 (0 : Fin 1)) n m

/-- On real weights, biases and time stamps the two scores agree (the edge table may hold anything: only whether an
    entry is zero matters). -/
theorem GK_eq_GR (X : Arr2 64 16384) (T : Arr2 64 1) (W1 : Arr2 128 128) (B1 : Arr1 128) (W2 : Arr2 128 128) (B2 : Arr1 128)
    (W3 : Arr2 128 128) (B3 : Arr1 128) (Wt1 : Arr2 1 128) (Bt1 : Arr1 128) (Wt2 : Arr2 128 128) (Bt2 : Arr1 128)
    (We0 : Arr2 256 128) (Be0 : Arr1 128) (We1 : Arr2 256 1) (Be1 : Arr1 1)
    (hT : ∀ i, IsR (T i)) (hW1 : ∀ i, IsR (W1 i)) (hB1 : ∀ i, IsR (B1 i)) (hW2 : ∀ i, IsR (W2 i)) (hB2 : ∀ i, IsR (B2 i))
    (hW3 : ∀ i, IsR (W3 i)) (hB3 : ∀ i, IsR (B3 i)) (hWt1 : ∀ i, IsR (Wt1 i)) (hBt1 : ∀ i, IsR (Bt1 i))
    (hWt2 : ∀ i, IsR (Wt2 i)) (hBt2 : ∀ i, IsR (Bt2 i)) (hWe0 : ∀ i, IsR (We0 i)) (hBe0 : ∀ i, IsR (Be0 i))
    (hWe1 : ∀ i, IsR (We1 i)) (hBe1 : ∀ i, IsR (Be1 i)) (b : Fin 64) (n m : Fin 128) :
    GK X T W1 B1 W2 B2 W3 B3 Wt1 Bt1 Wt2 Bt2 We0 Be0 We1 Be1 b n m
      = GR X T W1 B1 W2 B2 W3 B3 Wt1 Bt1 Wt2 Bt2 We0 Be0 We1 Be1 b n m :=
  outK_eq_outR
    (fun n f => isR_h3 (fun k j => hW1 _) (fun j => hB1 _) (fun k j => hW2 _) (fun j => hB2 _) (fun k j => hW3 _) (fun j => hB3 _) n f)
    (fun k => isR_te (hT _) (fun k => hWt1 _) (fun k => hBt1 _) (fun k j => hWt2 _) (fun j => hBt2 _) k)
    (fun f g => hWe0 _) (fun g => hBe0 _) (fun g => hWe1 _) (hBe1 _) n m

end Cert.GcnEdge

end
-- ==== Proof.RefValue.lean ====
/-
  The reference program's result, read at an index, is the specification's layer-by-layer pair score.

  Stage by stage, at explicit coordinates (graph b, nodes n and m, feature j): the reshaped first argument is graph b's
  edge table; "not equal to zero" converted to a float is the edge indicator and the comparison of the two coordinate
  tables is the identity, so their sum is the adjacency with self loops; its row sum is the degree, which is a real number
  at least 1, so the guarded quotient 1 / sqrt(deg) is deg^(-1/2); the two broadcast products give the normalized adjacency.
  The first layer contracts the identity features with W1, which leaves W1; each layer is then adj · (P · W) + bias, the
  first two followed by max(·, 0). The time embedding is a sum over one index, the tanh form of GELU (its cube written
  (x · x) · x), a contraction and a bias. Each of the two joins along the last axis puts one 128-wide block after another,
  so a contraction over the 256 joined positions is the sum of the two contractions over 128 positions, against the upper
  and the lower 128 rows of the weight table. The last reshape drops a unit axis.
-/
import proofs.«174631_g79482664780415_cont_9to1_m_1303_2_alg».proof.Proof.RefReadP
import proofs.«174631_g79482664780415_cont_9to1_m_1303_2_alg».proof.Proof.Spec
import proofs.«174631_g79482664780415_cont_9to1_m_1303_2_alg».proof.Proof.SpecLaws
import proofs.«174631_g79482664780415_cont_9to1_m_1303_2_alg».proof.Proof.Scalars
import proofs.«174631_g79482664780415_cont_9to1_m_1303_2_alg».proof.Proof.SpecArrays
import Idealize.ShloMosaic.Lib.Pipeline.Value
import Idealize.ShloMosaic.Lib.ValueIdx

noncomputable section

open scoped BigOperators

namespace Cert.ReferenceIdeal.RefValue

open Cert.ReferenceIdeal Cert.ReferenceIdeal.Gen Cert.ReferenceIdeal.ReadP Cert.GcnEdge
open Idealize.ShloMosaic Idealize.ShloMosaic.ValueIdx

/-! ## Indices by their coordinates -/

theorem idx1_ext {n0 : ℕ} (i : (⟨1, ![n0]⟩ : Shape).Idx) (a : Fin n0) (e0 : (i 0).val = a.val) : i = ix1 a := by
  funext d
  match d with
  | ⟨0, _⟩ => exact Fin.ext e0

theorem idx2_ext {n0 n1 : ℕ} (i : (⟨2, ![n0, n1]⟩ : Shape).Idx) (a : Fin n0) (b : Fin n1)
    (e0 : (i 0).val = a.val) (e1 : (i 1).val = b.val) : i = ix2 a b := by
  funext d
  match d with
  | ⟨0, _⟩ => exact Fin.ext e0
  | ⟨1, _⟩ => exact Fin.ext e1

theorem idx3_ext {n0 n1 n2 : ℕ} (i : (⟨3, ![n0, n1, n2]⟩ : Shape).Idx) (a : Fin n0) (b : Fin n1) (c : Fin n2)
    (e0 : (i 0).val = a.val) (e1 : (i 1).val = b.val) (e2 : (i 2).val = c.val) : i = ix3 a b c := by
  funext d
  match d with
  | ⟨0, _⟩ => exact Fin.ext e0
  | ⟨1, _⟩ => exact Fin.ext e1
  | ⟨2, _⟩ => exact Fin.ext e2

theorem idx4_ext {n0 n1 n2 n3 : ℕ} (i : (⟨4, ![n0, n1, n2, n3]⟩ : Shape).Idx) (a : Fin n0) (b : Fin n1) (c : Fin n2) (d : Fin n3)
    (e0 : (i 0).val = a.val) (e1 : (i 1).val = b.val) (e2 : (i 2).val = c.val) (e3 : (i 3).val = d.val) : i = ix4 a b c d := by
  funext q
  match q with
  | ⟨0, _⟩ => exact Fin.ext e0
  | ⟨1, _⟩ => exact Fin.ext e1
  | ⟨2, _⟩ => exact Fin.ext e2
  | ⟨3, _⟩ => exact Fin.ext e3

/-- A sum over 256 positions is the sum over the lower 128 plus the sum over the upper 128. -/
theorem sum_fin256 (F : Fin 256 → EReal) : ∑ k : Fin 256, F k = (∑ f : Fin 128, F (lo f)) + ∑ f : Fin 128, F (hi f) :=
  Fin.sum_univ_add (a := 128) (b := 128) F

/-! ## The adjacency -/

/-- The reshaped first argument at `(b, a, c)` is graph `b`'s edge weight of the pair `(a, c)`. -/
theorem v0_at (x0 : (⟨S64x16384, .f32⟩ : BufTy).Contents (Elt Ideal)) (b : Fin 64) (a c : Fin 128) :
    val_main_v0 (F := Ideal) x0 (ix3 b a c) = graphOf x0 b a c := by
  rw [val_main_v0_apply]
  unfold graphOf
  refine congrArg x0 (idx2_ext _ _ _ ?_ ?_)
  · have ha := a.isLt
    have hc := c.isLt
    show ((b.val * 128 + a.val) * 128 + c.val) / 16384 = b.val
    omega
  · have ha := a.isLt
    have hc := c.isLt
    show ((b.val * 128 + a.val) * 128 + c.val) % 16384 = a.val * 128 + c.val
    omega

theorem v3_at (x0 : (⟨S64x16384, .f32⟩ : BufTy).Contents (Elt Ideal)) (b : Fin 64) (a c : Fin 128) :
    val_main_v3 (F := Ideal) x0 (ix3 b a c) = edge (graphOf x0 b a c) := by
  rw [val_main_v3_apply, val_main_v2_apply, val_main_v1_apply, val_main_cst_apply, v0_at]
  exact edge_host _

theorem v9_at (n m : Fin 128) : val_main_v9 (F := Ideal) (ix2 n m) = eye n m := by
  rw [val_main_v9_apply, val_main_v8_apply, val_main_v7_apply, val_main_v6_apply, val_main_c_apply, val_main_v4_apply,
    val_main_v5_apply]
  exact eye_host n m

theorem v11_at (b : Fin 64) (n m : Fin 128) : val_main_v11 (F := Ideal) (ix3 b n m) = eye n m := by
  rw [val_main_v11_apply, val_main_v10_apply,
    show idx_main_v10 (idx_main_v11 (ix3 b n m)) = ix2 n m from idx2_ext _ _ _ rfl rfl]
  exact v9_at n m

theorem v31_at (n m : Fin 128) : val_main_v31 (F := Ideal) (ix2 n m) = eye n m := by
  rw [val_main_v31_apply, val_main_v30_apply, val_main_v29_apply, val_main_v28_apply, val_main_c_4_apply,
    val_main_v26_apply, val_main_v27_apply]
  exact eye_host n m

theorem v33_at (b : Fin 64) (n m : Fin 128) : val_main_v33 (F := Ideal) (ix3 b n m) = eye n m := by
  rw [val_main_v33_apply, val_main_v32_apply,
    show idx_main_v32 (idx_main_v33 (ix3 b n m)) = ix2 n m from idx2_ext _ _ _ rfl rfl]
  exact v31_at n m

theorem v12_at (x0 : (⟨S64x16384, .f32⟩ : BufTy).Contents (Elt Ideal)) (b : Fin 64) (n m : Fin 128) :
    val_main_v12 (F := Ideal) x0 (ix3 b n m) = ahat (graphOf x0 b) n m := by
  rw [val_main_v12_apply, v3_at, v11_at]
  rfl

theorem v13_at (x0 : (⟨S64x16384, .f32⟩ : BufTy).Contents (Elt Ideal)) (b : Fin 64) (n : Fin 128) :
    val_main_v13 (F := Ideal) x0 (ix2 b n) = deg (graphOf x0 b) n := by
  rw [val_main_v13_apply, val_main_cst_0_apply]
  show Ideal.ofBits .f32 0x00000000#32 + _ = _
  rw [Ideal.ofBits_zero_f32, zero_add]
  unfold deg
  refine Finset.sum_congr rfl fun k _ => ?_
  rw [show idx_main_v13 (ix2 b n) k = ix3 b n k from idx3_ext _ _ _ _ rfl rfl rfl]
  exact v12_at x0 b n k

/-- The guarded quotient `1 / sqrt(deg)` is `deg^(-1/2)`: the degree is a real number at least 1. -/
theorem v19_at (x0 : (⟨S64x16384, .f32⟩ : BufTy).Contents (Elt Ideal)) (b : Fin 64) (n : Fin 128) :
    val_main_v19 (F := Ideal) x0 (ix2 b n) = dinv (graphOf x0 b) n := by
  have hd := deg_real (graphOf x0 b) n
  rw [val_main_v19_apply, val_main_v15_apply, val_main_v18_apply, val_main_v16_apply, val_main_v17_apply,
    val_main_cst_2_apply, val_main_v14_apply, val_main_cst_1_apply, v13_at]
  show Scalar.select (Ideal.cmp .ogt (deg (graphOf x0 b) n) (Ideal.ofBits .f32 0x00000000#32))
    (Ideal.div c1 (Ideal.sqrt (deg (graphOf x0 b) n))) _ = _
  rw [Ideal.ofBits_zero_f32, cmp_ogt_zero _ hd, select_one, c1_eq_one, div_sqrt_eq_rsqrt _ hd]
  rfl

theorem v25_at (x0 : (⟨S64x16384, .f32⟩ : BufTy).Contents (Elt Ideal)) (b : Fin 64) (n m : Fin 128) :
    val_main_v25 (F := Ideal) x0 (ix3 b n m) = adj (graphOf x0 b) n m := by
  rw [val_main_v25_apply, val_main_v22_apply, val_main_v21_apply, val_main_v20_apply, val_main_v24_apply,
    val_main_v23_apply,
    show idx_main_v20 (idx_main_v21 (ix3 b n m)) = ix2 b n from idx2_ext _ _ _ rfl rfl,
    show idx_main_v23 (idx_main_v24 (ix3 b n m)) = ix2 b m from idx2_ext _ _ _ rfl rfl,
    v19_at, v19_at, v12_at]
  rfl

/-! ## The three convolutions -/

/-- The identity features contracted with `W1` leave `W1`. -/
theorem v55_at (x2 : (⟨S128x128, .f32⟩ : BufTy).Contents (Elt Ideal)) (b : Fin 64) (n j : Fin 128) :
    val_main_v55 (F := Ideal) x2 (ix3 b n j) = mat x2 n j := by
  rw [val_main_v55_apply]
  refine (Finset.sum_congr rfl fun k _ => ?_).trans (eye_collapse (mat x2) n j)
  rw [show lidx_main_v55 (ix3 b n j) k = ix3 b n k from idx3_ext _ _ _ _ rfl rfl rfl, v33_at,
    show ridx_main_v55 (ix3 b n j) k = ix2 k j from idx2_ext _ _ _ rfl rfl]
  rfl

theorem v60_at (x0 : (⟨S64x16384, .f32⟩ : BufTy).Contents (Elt Ideal)) (x2 : (⟨S128x128, .f32⟩ : BufTy).Contents (Elt Ideal)) (x3 : (⟨S128, .f32⟩ : BufTy).Contents (Elt Ideal)) (b : Fin 64) (n j : Fin 128) :
    val_main_v60 (F := Ideal) x0 x2 x3 (ix3 b n j) = h1 (graphOf x0 b) (mat x2) (vec x3) n j := by
  rw [val_main_v60_apply, val_main_call1_v0_apply, val_main_call1_cst_apply, val_main_v59_apply, val_main_v56_apply,
    val_main_v58_apply, val_main_v57_apply,
    show idx_main_v57 (idx_main_v58 (ix3 b n j)) = ix1 j from idx1_ext _ _ rfl]
  show max ((∑ k : Fin 128, _) + x3 (ix1 j)) (Ideal.ofBits .f32 0x00000000#32) = _
  rw [Ideal.ofBits_zero_f32]
  unfold h1
  refine congrArg (fun s => max (s + vec x3 j) 0) (Finset.sum_congr rfl fun k _ => ?_)
  rw [show lidx_main_v56 (ix3 b n j) k = ix3 b n k from idx3_ext _ _ _ _ rfl rfl rfl, v25_at,
    show ridx_main_v56 (ix3 b n j) k = ix3 b k j from idx3_ext _ _ _ _ rfl rfl rfl, v55_at]

theorem v61_at (x0 : (⟨S64x16384, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (b : Fin 64) (k j : Fin 128) :
    val_main_v61 (F := Ideal) x0 x2 x3 x4 (ix3 b k j)
      = ∑ l : Fin 128, h1 (graphOf x0 b) (mat x2) (vec x3) k l * mat x4 l j := by
  rw [val_main_v61_apply]
  refine Finset.sum_congr rfl fun l _ => ?_
  rw [show lidx_main_v61 (ix3 b k j) l = ix3 b k l from idx3_ext _ _ _ _ rfl rfl rfl, v60_at,
    show ridx_main_v61 (ix3 b k j) l = ix2 l j from idx2_ext _ _ _ rfl rfl]
  rfl

theorem v66_at (x0 : (⟨S64x16384, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (b : Fin 64) (n j : Fin 128) :
    val_main_v66 (F := Ideal) x0 x2 x3 x4 x5 (ix3 b n j)
      = h2 (graphOf x0 b) (mat x2) (vec x3) (mat x4) (vec x5) n j := by
  rw [val_main_v66_apply, val_main_call2_v0_apply, val_main_call2_cst_apply, val_main_v65_apply, val_main_v62_apply,
    val_main_v64_apply, val_main_v63_apply,
    show idx_main_v63 (idx_main_v64 (ix3 b n j)) = ix1 j from idx1_ext _ _ rfl]
  show max ((∑ k : Fin 128, _) + x5 (ix1 j)) (Ideal.ofBits .f32 0x00000000#32) = _
  rw [Ideal.ofBits_zero_f32]
  unfold h2 conv
  refine congrArg (fun s => max (s + vec x5 j) 0) (Finset.sum_congr rfl fun k _ => ?_)
  rw [show lidx_main_v62 (ix3 b n j) k = ix3 b n k from idx3_ext _ _ _ _ rfl rfl rfl, v25_at,
    show ridx_main_v62 (ix3 b n j) k = ix3 b k j from idx3_ext _ _ _ _ rfl rfl rfl, v61_at]

theorem v67_at (x0 : (⟨S64x16384, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (b : Fin 64) (k j : Fin 128) :
    val_main_v67 (F := Ideal) x0 x2 x3 x4 x5 x6 (ix3 b k j)
      = ∑ l : Fin 128, h2 (graphOf x0 b) (mat x2) (vec x3) (mat x4) (vec x5) k l * mat x6 l j := by
  rw [val_main_v67_apply]
  refine Finset.sum_congr rfl fun l _ => ?_
  rw [show lidx_main_v67 (ix3 b k j) l = ix3 b k l from idx3_ext _ _ _ _ rfl rfl rfl, v66_at,
    show ridx_main_v67 (ix3 b k j) l = ix2 l j from idx2_ext _ _ _ rfl rfl]
  rfl

/-- The third convolution's result is graph `b`'s node features. -/
theorem v71_at (x0 : (⟨S64x16384, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (b : Fin 64) (n j : Fin 128) :
    val_main_v71 (F := Ideal) x0 x2 x3 x4 x5 x6 x7 (ix3 b n j) = h3Of x0 x2 x3 x4 x5 x6 x7 b n j := by
  rw [val_main_v71_apply, val_main_v68_apply, val_main_v70_apply, val_main_v69_apply,
    show idx_main_v69 (idx_main_v70 (ix3 b n j)) = ix1 j from idx1_ext _ _ rfl]
  show (∑ k : Fin 128, _) + x7 (ix1 j) = _
  unfold h3Of h3 conv
  refine congrArg (fun s => s + vec x7 j) (Finset.sum_congr rfl fun k _ => ?_)
  rw [show lidx_main_v68 (ix3 b n j) k = ix3 b n k from idx3_ext _ _ _ _ rfl rfl rfl, v25_at,
    show ridx_main_v68 (ix3 b n j) k = ix3 b k j from idx3_ext _ _ _ _ rfl rfl rfl, v67_at]

/-! ## The time embedding -/

theorem v37_at (x1 : (⟨S64x1, .f32⟩ : BufTy).Contents (Elt Ideal)) (x8 : (⟨S1x128, .f32⟩ : BufTy).Contents (Elt Ideal)) (x9 : (⟨S128, .f32⟩ : BufTy).Contents (Elt Ideal)) (b : Fin 64) (j : Fin 128) :
    val_main_v37 (F := Ideal) x1 x8 x9 (ix2 b j) = colv x1 b * rowv x8 j + vec x9 j := by
  rw [val_main_v37_apply, val_main_v34_apply, Fin.sum_univ_one, val_main_v36_apply, val_main_v35_apply,
    show lidx_main_v34 (ix2 b j) 0 = ix2 b (0 : Fin 1) from idx2_ext _ _ _ rfl rfl,
    show ridx_main_v34 (ix2 b j) 0 = ix2 (0 : Fin 1) j from idx2_ext _ _ _ rfl rfl,
    show idx_main_v35 (idx_main_v36 (ix2 b j)) = ix1 j from idx1_ext _ _ rfl]
  rfl

/-- The tanh form of GELU; the program writes the cube as `(x · x) · x`. -/
theorem v50_at (x1 : (⟨S64x1, .f32⟩ : BufTy).Contents (Elt Ideal)) (x8 : (⟨S1x128, .f32⟩ : BufTy).Contents (Elt Ideal)) (x9 : (⟨S128, .f32⟩ : BufTy).Contents (Elt Ideal)) (b : Fin 64) (j : Fin 128) :
    val_main_v50 (F := Ideal) x1 x8 x9 (ix2 b j) = gelu (colv x1 b * rowv x8 j + vec x9 j) := by
  rw [val_main_v50_apply, val_main_v49_apply, val_main_v48_apply, val_main_cst_8_apply, val_main_v47_apply,
    val_main_v46_apply, val_main_cst_7_apply, val_main_v45_apply, val_main_v44_apply, val_main_v43_apply,
    val_main_cst_6_apply, val_main_v42_apply, val_main_v41_apply, val_main_v40_apply, val_main_cst_5_apply,
    val_main_v39_apply, val_main_v38_apply, v37_at]
  unfold gelu
  generalize colv x1 b * rowv x8 j + vec x9 j = u
  show u * (c05 * (c1 + Ideal.tanh (c079 * (u + c044 * ((u * u) * u)))))
    = u * (c05 * (c1 + Ideal.tanh (c079 * (u + c044 * (u * (u * u))))))
  rw [mul_comm (u * u) u]

theorem v54_at (x1 : (⟨S64x1, .f32⟩ : BufTy).Contents (Elt Ideal)) (x8 : (⟨S1x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (b : Fin 64) (j : Fin 128) :
    val_main_v54 (F := Ideal) x1 x8 x9 x10 x11 (ix2 b j) = teOf x1 x8 x9 x10 x11 b j := by
  rw [val_main_v54_apply, val_main_v51_apply, val_main_v53_apply, val_main_v52_apply,
    show idx_main_v52 (idx_main_v53 (ix2 b j)) = ix1 j from idx1_ext _ _ rfl]
  show (∑ k : Fin 128, _) + x11 (ix1 j) = _
  unfold teOf te
  refine congrArg (fun s => s + vec x11 j) (Finset.sum_congr rfl fun k _ => ?_)
  rw [show lidx_main_v51 (ix2 b j) k = ix2 b k from idx2_ext _ _ _ rfl rfl, v50_at,
    show ridx_main_v51 (ix2 b j) k = ix2 k j from idx2_ext _ _ _ rfl rfl]
  rfl

/-! ## The pair score -/

/-- The first join at a lower position reads node `n`'s features, at an upper position node `m`'s. -/
theorem v76_lo (x0 : (⟨S64x16384, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (b : Fin 64) (n m f : Fin 128) :
    val_main_v76 (F := Ideal) x0 x2 x3 x4 x5 x6 x7 (ix4 b n m (lo f)) = h3Of x0 x2 x3 x4 x5 x6 x7 b n f := by
  unfold val_main_v76
  refine (concatenate_pair_apply_left (t := S64x128x128x256) (s₁ := S64x128x128x128) (s₂ := S64x128x128x128) (3 : Fin 4) _ _ concatenates_S64x128x128x128_S64x128x128x128_S64x128x128x256_d3
    (ix4 b n m (lo f)) rfl (ix4 b n m f) (fun c => ?_)).trans ?_
  · match c with
    | ⟨0, _⟩ => rfl
    | ⟨1, _⟩ => rfl
    | ⟨2, _⟩ => rfl
    | ⟨3, _⟩ => rfl
  · rw [val_main_v73_apply, val_main_v72_apply,
      show idx_main_v72 (idx_main_v73 (ix4 b n m f)) = ix3 b n f from idx3_ext _ _ _ _ rfl rfl rfl]
    exact v71_at x0 x2 x3 x4 x5 x6 x7 b n f

theorem v76_hi (x0 : (⟨S64x16384, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (b : Fin 64) (n m f : Fin 128) :
    val_main_v76 (F := Ideal) x0 x2 x3 x4 x5 x6 x7 (ix4 b n m (hi f)) = h3Of x0 x2 x3 x4 x5 x6 x7 b m f := by
  unfold val_main_v76
  refine (concatenate_pair_apply_right (t := S64x128x128x256) (s₁ := S64x128x128x128) (s₂ := S64x128x128x128) (3 : Fin 4) _ _ concatenates_S64x128x128x128_S64x128x128x128_S64x128x128x256_d3
    (ix4 b n m (hi f)) rfl rfl (ix4 b n m f) (fun c hc => ?_) ?_).trans ?_
  · match c, hc with
    | ⟨0, _⟩, _ => rfl
    | ⟨1, _⟩, _ => rfl
    | ⟨2, _⟩, _ => rfl
    | ⟨3, _⟩, hc => exact (hc (Fin.ext rfl)).elim
  · show f.val + 128 = 128 + f.val
    omega
  · rw [val_main_v75_apply, val_main_v74_apply,
      show idx_main_v74 (idx_main_v75 (ix4 b n m f)) = ix3 b m f from idx3_ext _ _ _ _ rfl rfl rfl]
    exact v71_at x0 x2 x3 x4 x5 x6 x7 b m f

/-- The first scoring layer before its bias: the joined features against the lower and the upper rows of the weights. -/
theorem v77_at (x0 : (⟨S64x16384, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x12 : (⟨S256x128, .f32⟩ : BufTy).Contents (Elt Ideal)) (b : Fin 64) (n m g : Fin 128) :
    val_main_v77 (F := Ideal) x0 x2 x3 x4 x5 x6 x7 x12 (ix4 b n m g) = ((∑ f : Fin 128, h3Of x0 x2 x3 x4 x5 x6 x7 b n f * mat x12 (lo f) g) + ∑ f : Fin 128, h3Of x0 x2 x3 x4 x5 x6 x7 b m f * mat x12 (hi f) g) := by
  rw [val_main_v77_apply]
  refine (sum_fin256 _).trans ?_
  beta_reduce
  refine congrArg₂ (· + ·) (Finset.sum_congr rfl fun f _ => ?_) (Finset.sum_congr rfl fun f _ => ?_)
  · rw [show lidx_main_v77 (ix4 b n m g) (lo f) = ix4 b n m (lo f) from idx4_ext _ _ _ _ _ rfl rfl rfl rfl, v76_lo,
      show ridx_main_v77 (ix4 b n m g) (lo f) = ix2 (lo f) g from idx2_ext _ _ _ rfl rfl]
    rfl
  · rw [show lidx_main_v77 (ix4 b n m g) (hi f) = ix4 b n m (hi f) from idx4_ext _ _ _ _ _ rfl rfl rfl rfl, v76_hi,
      show ridx_main_v77 (ix4 b n m g) (hi f) = ix2 (hi f) g from idx2_ext _ _ _ rfl rfl]
    rfl

theorem v80_at (x0 : (⟨S64x16384, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x12 : (⟨S256x128, .f32⟩ : BufTy).Contents (Elt Ideal)) (x13 : (⟨S128, .f32⟩ : BufTy).Contents (Elt Ideal)) (b : Fin 64) (n m g : Fin 128) :
    val_main_v80 (F := Ideal) x0 x2 x3 x4 x5 x6 x7 x12 x13 (ix4 b n m g) = (((∑ f : Fin 128, h3Of x0 x2 x3 x4 x5 x6 x7 b n f * mat x12 (lo f) g) + ∑ f : Fin 128, h3Of x0 x2 x3 x4 x5 x6 x7 b m f * mat x12 (hi f) g) + vec x13 g) := by
  rw [val_main_v80_apply, v77_at, val_main_v79_apply, val_main_v78_apply,
    show idx_main_v78 (idx_main_v79 (ix4 b n m g)) = ix1 g from idx1_ext _ _ rfl]
  rfl

theorem v82_at (x1 : (⟨S64x1, .f32⟩ : BufTy).Contents (Elt Ideal)) (x8 : (⟨S1x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (b : Fin 64) (n m g : Fin 128) :
    val_main_v82 (F := Ideal) x1 x8 x9 x10 x11 (ix4 b n m g) = teOf x1 x8 x9 x10 x11 b g := by
  rw [val_main_v82_apply, val_main_v81_apply,
    show idx_main_v81 (idx_main_v82 (ix4 b n m g)) = ix2 b g from idx2_ext _ _ _ rfl rfl]
  exact v54_at x1 x8 x9 x10 x11 b g

/-- The second join at a lower position reads the first scoring layer, at an upper position the time embedding. -/
theorem v83_lo (x0 : (⟨S64x16384, .f32⟩ : BufTy).Contents (Elt Ideal)) (x1 : (⟨S64x1, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S1x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S256x128, .f32⟩ : BufTy).Contents (Elt Ideal)) (x13 : (⟨S128, .f32⟩ : BufTy).Contents (Elt Ideal)) (b : Fin 64) (n m g : Fin 128) :
    val_main_v83 (F := Ideal) x0 x1 x2 x3 x4 x5 x6 x7 x8 x9 x10 x11 x12 x13 (ix4 b n m (lo g)) = (((∑ f : Fin 128, h3Of x0 x2 x3 x4 x5 x6 x7 b n f * mat x12 (lo f) g) + ∑ f : Fin 128, h3Of x0 x2 x3 x4 x5 x6 x7 b m f * mat x12 (hi f) g) + vec x13 g) := by
  unfold val_main_v83
  refine (concatenate_pair_apply_left (t := S64x128x128x256) (s₁ := S64x128x128x128) (s₂ := S64x128x128x128) (3 : Fin 4) _ _ concatenates_S64x128x128x128_S64x128x128x128_S64x128x128x256_d3
    (ix4 b n m (lo g)) rfl (ix4 b n m g) (fun c => ?_)).trans ?_
  · match c with
    | ⟨0, _⟩ => rfl
    | ⟨1, _⟩ => rfl
    | ⟨2, _⟩ => rfl
    | ⟨3, _⟩ => rfl
  · exact v80_at x0 x2 x3 x4 x5 x6 x7 x12 x13 b n m g

theorem v83_hi (x0 : (⟨S64x16384, .f32⟩ : BufTy).Contents (Elt Ideal)) (x1 : (⟨S64x1, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S1x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S256x128, .f32⟩ : BufTy).Contents (Elt Ideal)) (x13 : (⟨S128, .f32⟩ : BufTy).Contents (Elt Ideal)) (b : Fin 64) (n m g : Fin 128) :
    val_main_v83 (F := Ideal) x0 x1 x2 x3 x4 x5 x6 x7 x8 x9 x10 x11 x12 x13 (ix4 b n m (hi g)) = teOf x1 x8 x9 x10 x11 b g := by
  unfold val_main_v83
  refine (concatenate_pair_apply_right (t := S64x128x128x256) (s₁ := S64x128x128x128) (s₂ := S64x128x128x128) (3 : Fin 4) _ _ concatenates_S64x128x128x128_S64x128x128x128_S64x128x128x256_d3
    (ix4 b n m (hi g)) rfl rfl (ix4 b n m g) (fun c hc => ?_) ?_).trans ?_
  · match c, hc with
    | ⟨0, _⟩, _ => rfl
    | ⟨1, _⟩, _ => rfl
    | ⟨2, _⟩, _ => rfl
    | ⟨3, _⟩, hc => exact (hc (Fin.ext rfl)).elim
  · show g.val + 128 = 128 + g.val
    omega
  · exact v82_at x1 x8 x9 x10 x11 b n m g

/-- The second scoring layer before its bias. -/
theorem v84_at (x0 : (⟨S64x16384, .f32⟩ : BufTy).Contents (Elt Ideal)) (x1 : (⟨S64x1, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S1x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S256x128, .f32⟩ : BufTy).Contents (Elt Ideal)) (x13 : (⟨S128, .f32⟩ : BufTy).Contents (Elt Ideal)) (x14 : (⟨S256x1, .f32⟩ : BufTy).Contents (Elt Ideal)) (b : Fin 64) (n m : Fin 128) :
    val_main_v84 (F := Ideal) x0 x1 x2 x3 x4 x5 x6 x7 x8 x9 x10 x11 x12 x13 x14 (ix4 b n m (0 : Fin 1))
      = (∑ g : Fin 128, (((∑ f : Fin 128, h3Of x0 x2 x3 x4 x5 x6 x7 b n f * mat x12 (lo f) g) + ∑ f : Fin 128, h3Of x0 x2 x3 x4 x5 x6 x7 b m f * mat x12 (hi f) g) + vec x13 g) * colv x14 (lo g)) + ∑ g : Fin 128, teOf x1 x8 x9 x10 x11 b g * colv x14 (hi g) := by
  rw [val_main_v84_apply]
  refine (sum_fin256 _).trans ?_
  beta_reduce
  refine congrArg₂ (· + ·) (Finset.sum_congr rfl fun g _ => ?_) (Finset.sum_congr rfl fun g _ => ?_)
  · rw [show lidx_main_v84 (ix4 b n m (0 : Fin 1)) (lo g) = ix4 b n m (lo g) from idx4_ext _ _ _ _ _ rfl rfl rfl rfl,
      v83_lo,
      show ridx_main_v84 (ix4 b n m (0 : Fin 1)) (lo g) = ix2 (lo g) (0 : Fin 1) from idx2_ext _ _ _ rfl rfl]
    rfl
  · rw [show lidx_main_v84 (ix4 b n m (0 : Fin 1)) (hi g) = ix4 b n m (hi g) from idx4_ext _ _ _ _ _ rfl rfl rfl rfl,
      v83_hi,
      show ridx_main_v84 (ix4 b n m (0 : Fin 1)) (hi g) = ix2 (hi g) (0 : Fin 1) from idx2_ext _ _ _ rfl rfl]
    rfl

/-- The reference program's result at `(b, n, m)` is the layer-by-layer pair score of graph `b` at `(n, m)`. -/
theorem ref_apply (x0 : (⟨S64x16384, .f32⟩ : BufTy).Contents (Elt Ideal)) (x1 : (⟨S64x1, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S1x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S256x128, .f32⟩ : BufTy).Contents (Elt Ideal)) (x13 : (⟨S128, .f32⟩ : BufTy).Contents (Elt Ideal)) (x14 : (⟨S256x1, .f32⟩ : BufTy).Contents (Elt Ideal)) (x15 : (⟨S1, .f32⟩ : BufTy).Contents (Elt Ideal)) (b : Fin 64) (n m : Fin 128) :
    Cert.ReferenceIdeal.ReadP.val_main_v88 (F := Ideal) x0 x1 x2 x3 x4 x5 x6 x7 x8 x9 x10 x11 x12 x13 x14 x15 (ix3 b n m)
      = Cert.GcnEdge.GR x0 x1 x2 x3 x4 x5 x6 x7 x8 x9 x10 x11 x12 x13 x14 x15 b n m := by
  have hn := n.isLt
  have hm := m.isLt
  rw [val_main_v88_apply,
    show idx_main_v88 (ix3 b n m) = ix4 b n m (0 : Fin 1) from idx4_ext _ _ _ _ _
      (by show ((b.val * 128 + n.val) * 128 + m.val) / 16384 = b.val; omega)
      (by show ((b.val * 128 + n.val) * 128 + m.val) / 128 % 128 = n.val; omega)
      (by show ((b.val * 128 + n.val) * 128 + m.val) / 1 % 128 = m.val; omega) rfl,
    val_main_v87_apply, v84_at, val_main_v86_apply, val_main_v85_apply,
    show idx_main_v85 (idx_main_v86 (ix4 b n m (0 : Fin 1))) = ix1 (0 : Fin 1) from idx1_ext _ _ rfl]
  rfl

end Cert.ReferenceIdeal.RefValue

end
-- ==== Proof.KernelBody.lean ====
/-
  What one grid point of the kernel leaves in its output block, as one pure function of the blocks it loads.

  The body's single store covers the whole 1 × 128 × 128 output block, so the block after the body is the stored value:
  the body's arithmetic applied to the loaded blocks — the graph's adjacency block, the time stamps (read at the row of
  the current graph), the layer weights and biases, and the two halves of the two edge-scoring tables.
-/
import proofs.«174631_g79482664780415_cont_9to1_m_1303_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Facts

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The stored block as a function of the loaded blocks, at grid coordinates `i` (the graph's number). -/
def body (i : grid0.Coords) (x0 : Vec F S1x128x128 .f32) (x1 : Vec F S64x1 .f32) (x2 : Vec F S128x128 .f32) (x3 : Vec F S1x128 .f32) (x4 : Vec F S128x128 .f32) (x5 : Vec F S1x128 .f32) (x6 : Vec F S128x128 .f32) (x7 : Vec F S1x128 .f32) (x8 : Vec F S1x128 .f32) (x9 : Vec F S1x128 .f32) (x10 : Vec F S128x128 .f32) (x11 : Vec F S1x128 .f32) (x12 : Vec F S256x128 .f32) (x13 : Vec F S1x128 .f32) (x14 : Vec F S256x1 .f32) (x15 : Vec F S1x1 .f32) : Vec F S1x128x128 .f32 :=
  k0_pay1 (View.ld x14 (Rect.unit (s := S256x1) ![0, 0] S128x1.size inb_S256x1_S128x1_0_0))
    (k0_pay5 (k0_pay2 x0) (k0_pay3 x0 x2 x3 x4 x5) x6 (constant S128x128 .f32 0x00000000#32) x7
      (View.ld x14 (Rect.unit (s := S256x1) ![0, 0] S128x1.size inb_S256x1_S128x1_0_0))
      (View.ld x12 (Rect.unit (s := S256x128) ![0, 0] S128x128.size inb_S256x128_S128x128_0_0)))
    (k0_pay6 (k0_pay2 x0) (k0_pay3 x0 x2 x3 x4 x5) x6 (constant S128x128 .f32 0x00000000#32) x7
      (View.ld x14 (Rect.unit (s := S256x1) ![0, 0] S128x1.size inb_S256x1_S128x1_0_0))
      (View.ld x12 (Rect.unit (s := S256x128) ![128, 0] S128x128.size inb_S256x128_S128x128_128_0)))
    (k0_pay7 (View.ld x1 (Rect.unit (s := S64x1) (k0_off1 i) S1x1.size (k0_off1_inb i))) x8 x9)
    x10 (constant S1x128 .f32 0x00000000#32) x11
    (View.ld x14 (Rect.unit (s := S256x1) ![128, 0] S128x1.size inb_S256x1_S128x1_128_0)) x13 x15

/-- The output block after the body is `body` of the input blocks. -/
theorem out_A (c : Dev nD) (i : grid0.Coords) (arg1 : Memref sig .tc .vmem S1x128x128 .f32) (harg1 : arg1.IsWhole) (arg2 : Memref sig .tc .vmem S64x1 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S256x128 .f32) (harg13 : arg13.IsWhole) (arg14 : Memref sig .tc .vmem S1x128 .f32) (harg14 : arg14.IsWhole) (arg15 : Memref sig .tc .vmem S256x1 .f32) (harg15 : arg15.IsWhole) (arg16 : Memref sig .tc .vmem S1x1 .f32) (harg16 : arg16.IsWhole) (arg17 : Memref sig .tc .vmem S1x128x128 .f32) (harg17 : arg17.IsWhole)
    (x0 : Vec F S1x128x128 .f32) (x1 : Vec F S64x1 .f32) (x2 : Vec F S128x128 .f32) (x3 : Vec F S1x128 .f32) (x4 : Vec F S128x128 .f32) (x5 : Vec F S1x128 .f32) (x6 : Vec F S128x128 .f32) (x7 : Vec F S1x128 .f32) (x8 : Vec F S1x128 .f32) (x9 : Vec F S1x128 .f32) (x10 : Vec F S128x128 .f32) (x11 : Vec F S1x128 .f32) (x12 : Vec F S256x128 .f32) (x13 : Vec F S1x128 .f32) (x14 : Vec F S256x1 .f32) (x15 : Vec F S1x1 .f32) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 = body i x0 x1 x2 x3 x4 x5 x6 x7 x8 x9 x10 x11 x12 x13 x14 x15 := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15)]
  unfold kernelRun0_A
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x128x128) hz3, View.ld_unit_zero (S := S128x128) hz2, View.ld_unit_zero (S := S1x128) hz2, View.ld_unit_zero (S := S1x1) hz2]
  rfl

end Cert.KernelIdeal.Hand

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.KernelDots.lean ====
/-
  The kernel's five matrix-product shapes, each read at an entry as the textbook sum over the shared coordinate.
-/
import proofs.«174631_g79482664780415_cont_9to1_m_1303_2_alg».proof.Proof.Gen.KernelIdeal.Skeleton
import proofs.«174631_g79482664780415_cont_9to1_m_1303_2_alg».proof.Proof.LibContract
import Idealize.ShloMosaic.PureOps.Ideal.Laws
import Idealize.ShloMosaic.Lib.ValueIdx

noncomputable section

open scoped BigOperators
open Idealize.ShloMosaic Idealize.ShloMosaic.ValueIdx

namespace Cert.KernelIdeal.Hand

open Cert.KernelIdeal Cert.KernelIdeal.Gen

/-- The product of a `[128, 128]` by a `[128, 128]` block into the zero accumulator, at `(p, q)`. -/
theorem mm_nn (l : FVec Ideal S128x128 .f32) (r : FVec Ideal S128x128 .f32) (p : Fin 128) (q : Fin 128) :
    matmul dot_S128x128_S128x128_S128x128_1_0_0_1_n_n none l r (constant S128x128 .f32 0x00000000#32) (ix2 p q) = ∑ k : Fin 128, l (ix2 p k) * r (ix2 k q) :=
  (Ideal.matmul_constant_zero_apply dot_S128x128_S128x128_S128x128_1_0_0_1_n_n none l r (ix2 p q)).trans
    (Contract2.sum_contr_eq_sum_fin dot_S128x128_S128x128_S128x128_1_0_0_1_n_n rfl rfl rfl rfl
      (fun j q => by
        unfold DotDims.lhsIdx
        rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
        rfl)
      (fun j q => by
        unfold DotDims.rhsIdx
        rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
        rfl)
      l r (ix2 p q))

/-- The product of a `[128, 128]` by a `[128, 1]` block into the zero accumulator, at `(p, q)`. -/
theorem mm_n1 (l : FVec Ideal S128x128 .f32) (r : FVec Ideal S128x1 .f32) (p : Fin 128) (q : Fin 1) :
    matmul dot_S128x128_S128x1_S128x1_1_0_0_1_n_n none l r (constant S128x1 .f32 0x00000000#32) (ix2 p q) = ∑ k : Fin 128, l (ix2 p k) * r (ix2 k q) :=
  (Ideal.matmul_constant_zero_apply dot_S128x128_S128x1_S128x1_1_0_0_1_n_n none l r (ix2 p q)).trans
    (Contract2.sum_contr_eq_sum_fin dot_S128x128_S128x1_S128x1_1_0_0_1_n_n rfl rfl rfl rfl
      (fun j q => by
        unfold DotDims.lhsIdx
        rw [dif_neg (show ¬(0 : Fin S128x128.rank) ∈ dot_S128x128_S128x1_S128x1_1_0_0_1_n_n.lhsBatch by decide), dif_pos (show (0 : Fin S128x128.rank) ∈ dot_S128x128_S128x1_S128x1_1_0_0_1_n_n.lhsNonContracting by decide)]
        rfl)
      (fun j q => by
        unfold DotDims.rhsIdx
        rw [dif_neg (show ¬(1 : Fin S128x1.rank) ∈ dot_S128x128_S128x1_S128x1_1_0_0_1_n_n.rhsBatch by decide), dif_pos (show (1 : Fin S128x1.rank) ∈ dot_S128x128_S128x1_S128x1_1_0_0_1_n_n.rhsNonContracting by decide)]
        rfl)
      l r (ix2 p q))

/-- The product of a `[1, 1]` by a `[1, 128]` block into the zero accumulator, at `(p, q)`. -/
theorem mm_11n (l : FVec Ideal S1x1 .f32) (r : FVec Ideal S1x128 .f32) (p : Fin 1) (q : Fin 128) :
    matmul dot_S1x1_S1x128_S1x128_1_0_0_1_n_n none l r (constant S1x128 .f32 0x00000000#32) (ix2 p q) = ∑ k : Fin 1, l (ix2 p k) * r (ix2 k q) :=
  (Ideal.matmul_constant_zero_apply dot_S1x1_S1x128_S1x128_1_0_0_1_n_n none l r (ix2 p q)).trans
    (Contract2.sum_contr_eq_sum_fin dot_S1x1_S1x128_S1x128_1_0_0_1_n_n rfl rfl rfl rfl
      (fun j q => by
        unfold DotDims.lhsIdx
        rw [dif_neg (show ¬(0 : Fin S1x1.rank) ∈ dot_S1x1_S1x128_S1x128_1_0_0_1_n_n.lhsBatch by decide), dif_pos (show (0 : Fin S1x1.rank) ∈ dot_S1x1_S1x128_S1x128_1_0_0_1_n_n.lhsNonContracting by decide)]
        rfl)
      (fun j q => by
        unfold DotDims.rhsIdx
        rw [dif_neg (show ¬(1 : Fin S1x128.rank) ∈ dot_S1x1_S1x128_S1x128_1_0_0_1_n_n.rhsBatch by decide), dif_pos (show (1 : Fin S1x128.rank) ∈ dot_S1x1_S1x128_S1x128_1_0_0_1_n_n.rhsNonContracting by decide)]
        rfl)
      l r (ix2 p q))

/-- The product of a `[1, 128]` by a `[128, 128]` block into the zero accumulator, at `(p, q)`. -/
theorem mm_1nn (l : FVec Ideal S1x128 .f32) (r : FVec Ideal S128x128 .f32) (p : Fin 1) (q : Fin 128) :
    matmul dot_S1x128_S128x128_S1x128_1_0_0_1_n_n none l r (constant S1x128 .f32 0x00000000#32) (ix2 p q) = ∑ k : Fin 128, l (ix2 p k) * r (ix2 k q) :=
  (Ideal.matmul_constant_zero_apply dot_S1x128_S128x128_S1x128_1_0_0_1_n_n none l r (ix2 p q)).trans
    (Contract2.sum_contr_eq_sum_fin dot_S1x128_S128x128_S1x128_1_0_0_1_n_n rfl rfl rfl rfl
      (fun j q => by
        unfold DotDims.lhsIdx
        rw [dif_neg (show ¬(0 : Fin S1x128.rank) ∈ dot_S1x128_S128x128_S1x128_1_0_0_1_n_n.lhsBatch by decide), dif_pos (show (0 : Fin S1x128.rank) ∈ dot_S1x128_S128x128_S1x128_1_0_0_1_n_n.lhsNonContracting by decide)]
        rfl)
      (fun j q => by
        unfold DotDims.rhsIdx
        rw [dif_neg (show ¬(1 : Fin S128x128.rank) ∈ dot_S1x128_S128x128_S1x128_1_0_0_1_n_n.rhsBatch by decide), dif_pos (show (1 : Fin S128x128.rank) ∈ dot_S1x128_S128x128_S1x128_1_0_0_1_n_n.rhsNonContracting by decide)]
        rfl)
      l r (ix2 p q))

/-- The product of a `[1, 128]` by a `[128, 1]` block into the zero accumulator, at `(p, q)`. -/
theorem mm_1n1 (l : FVec Ideal S1x128 .f32) (r : FVec Ideal S128x1 .f32) (p : Fin 1) (q : Fin 1) :
    matmul dot_S1x128_S128x1_S1x1_1_0_0_1_n_n none l r (constant S1x1 .f32 0x00000000#32) (ix2 p q) = ∑ k : Fin 128, l (ix2 p k) * r (ix2 k q) :=
  (Ideal.matmul_constant_zero_apply dot_S1x128_S128x1_S1x1_1_0_0_1_n_n none l r (ix2 p q)).trans
    (Contract2.sum_contr_eq_sum_fin dot_S1x128_S128x1_S1x1_1_0_0_1_n_n rfl rfl rfl rfl
      (fun j q => by
        unfold DotDims.lhsIdx
        rw [dif_neg (show ¬(0 : Fin S1x128.rank) ∈ dot_S1x128_S128x1_S1x1_1_0_0_1_n_n.lhsBatch by decide), dif_pos (show (0 : Fin S1x128.rank) ∈ dot_S1x128_S128x1_S1x1_1_0_0_1_n_n.lhsNonContracting by decide)]
        rfl)
      (fun j q => by
        unfold DotDims.rhsIdx
        rw [dif_neg (show ¬(1 : Fin S128x1.rank) ∈ dot_S1x128_S128x1_S1x1_1_0_0_1_n_n.rhsBatch by decide), dif_pos (show (1 : Fin S128x1.rank) ∈ dot_S1x128_S128x1_S1x1_1_0_0_1_n_n.rhsNonContracting by decide)]
        rfl)
      l r (ix2 p q))

end Cert.KernelIdeal.Hand

end
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibRowSum.lean ====
/-
  A sum along the rows of a matrix, read at an index on the extended reals: a lane reduction of an [n, k] matrix
  over its columns, into the zero accumulator, is at row r the sum over the k columns of the row's entries.
-/
import Idealize.ShloMosaic.PureOps.Ideal.Laws
import Idealize.ShloMosaic.Lib.ValueIdx

namespace Idealize.ShloMosaic.ValueIdx

open Idealize.ShloMosaic

/-- The reduced index `r` with the column `d` put back is the matrix index `(r, d)`. -/
theorem lift_rows {n k : ℕ} (h : (⟨2, ![n, k]⟩ : Shape).Reduces [1] ⟨1, ![n]⟩) (r : Fin n) (d : Fin k) :
    h.lift (ix1 r) d = ix2 r d :=
  funext fun a => Fin.ext (by match a with | ⟨0, _⟩ => rfl | ⟨1, _⟩ => rfl)

/-- A float lane sum over the columns of an `[n, k]` matrix, at row `r`, is the sum of the row's `k` entries. -/
theorem multiReduction_add_rows_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ d : Fin k, src (ix2 r d) :=
  (Ideal.multiReduction_add_single src 0x00000000#32 h hφ hacc (ix1 r)).trans
    (Finset.sum_congr rfl fun d _ => congrArg src (lift_rows h r d))

end Idealize.ShloMosaic.ValueIdx
-- ==== Proof.KernelValue.lean ====
/-
  The kernel's arithmetic, read entry by entry on the extended reals.

  A payload is the pure term the body computes between its loads and its one store: a tree of vector operations over the
  loaded blocks. Read at one entry: an elementwise operation is the scalar operation of its operands' entries, a broadcast
  of a column (row) reads the column (row), a lane sum is the sum of a row, and a product into the zero accumulator is the
  sum over the shared coordinate. So the adjacency payload's entries are the normalized adjacency, the next payloads are
  the graph convolutions, the two per-node vectors and the first layer of the time embedding, and the stored payload at
  (n, m) is the two per-node terms plus the per-graph scalar.
-/
import proofs.«174631_g79482664780415_cont_9to1_m_1303_2_alg».proof.Proof.KernelDots
import proofs.«174631_g79482664780415_cont_9to1_m_1303_2_alg».proof.Proof.Spec
import proofs.«174631_g79482664780415_cont_9to1_m_1303_2_alg».proof.Proof.Scalars
import proofs.«174631_g79482664780415_cont_9to1_m_1303_2_alg».proof.Proof.LibColumn
import proofs.«174631_g79482664780415_cont_9to1_m_1303_2_alg».proof.Proof.LibRowSum
import Idealize.ShloMosaic.Lib.ValueLayout
import Idealize.ShloMosaic.Lib.Pipeline.Value

noncomputable section

open scoped BigOperators
open Idealize.ShloMosaic Idealize.ShloMosaic.ValueIdx

namespace Cert.KernelIdeal.Hand

open Cert.KernelIdeal Cert.KernelIdeal.Gen Cert.GcnEdge

/-! ## Elementwise operations and the small layout operations, at an entry -/

theorem rsqrt_apply {s : Shape} (v : FVec Ideal s .f32) (i : s.Idx) : rsqrt v i = Ideal.rsqrt (v i) := rfl
theorem tanh_apply {s : Shape} (v : FVec Ideal s .f32) (i : s.Idx) : tanh v i = Ideal.tanh (v i) := rfl
theorem cmpi_apply {s : Shape} {w : Nat} (p : CmpIPredicate) (x y : IVec s w) (i : s.Idx) :
    cmpi p x y i = IntOp.cmpi p (x i) (y i) := rfl

/-- The row number of an entry, as a word. -/
theorem iota_rows_apply (n m : Fin 128) :
    iota .tc S128x128 32 [0] iota_S128x128_d0_w32 (ix2 n m) = BitVec.ofNat 32 n.val := by
  show BitVec.ofNat 32 (0 * 128 + n.val) = _
  rw [Nat.zero_mul, Nat.zero_add]

/-- The column number of an entry, as a word. -/
theorem iota_cols_apply (n m : Fin 128) :
    iota .tc S128x128 32 [1] iota_S128x128_d1_w32 (ix2 n m) = BitVec.ofNat 32 m.val := by
  show BitVec.ofNat 32 (0 * 128 + m.val) = _
  rw [Nat.zero_mul, Nat.zero_add]

/-- The lane sum of a 128 × 128 block at row `r` is the sum of the row. -/
theorem rowsum_apply (v : FVec Ideal S128x128 .f32) (r : Fin 128) :
    multiReduction .add [1] S128 v 0x00000000#32 reduces_S128x128_S128 (.inl rfl) rfl (ix1 r) = ∑ d : Fin 128, v (ix2 r d) :=
  multiReduction_add_rows_apply v reduces_S128x128_S128 (.inl rfl) rfl r

/-- The one entry of a 1 × 1 block. -/
theorem extract00 {α : Type} (v : S1x1.Idx → α) (h : ∀ a, (![0, 0] : Fin 2 → Nat) a < S1x1.size a) :
    extractAt ![0, 0] v h = v (ix2 (0 : Fin 1) (0 : Fin 1)) :=
  congrArg v (funext fun a => Fin.ext (by match a with | ⟨0, _⟩ => rfl | ⟨1, _⟩ => rfl))

/-! ## The payloads -/

/-- An entry of the identity as the body spells it: row and column numbers compared as words. -/
theorem eye_entry (n m : Fin 128) :
    FloatOps.sitofp (F := Ideal) .f32 (BitVec.setWidth 32 (IntOp.cmpi .eq (iota .tc S128x128 32 [0] iota_S128x128_d0_w32 (ix2 n m))
      (iota .tc S128x128 32 [1] iota_S128x128_d1_w32 (ix2 n m)))) = eye n m := by
  rw [iota_rows_apply, iota_cols_apply]; exact eye_kernel n m

set_option backward.isDefEq.respectTransparency.types false in
/-- The adjacency payload is the normalized adjacency of the graph's block. -/
theorem pay2_apply (x0 : Vec Ideal S1x128x128 .f32) (n m : Fin 128) :
    k0_pay2 x0 (ix2 n m) = adj (fun a b => x0 (ix3 (0 : Fin 1) a b)) n m := by
  unfold k0_pay2
  simp only [mulf_apply, addf_apply, broadcastTo_a1_ab_apply, broadcastTo_1b_ab_apply, shapeCast_a1_1a_apply, rsqrt_apply,
    shapeCast_a_a1_apply]
  rw [rowsum_apply, rowsum_apply]
  simp only [addf_apply, sitofp_apply, extui_apply, cmpf_apply, cmpi_apply, broadcast_apply,
    shapeCast_1ab_ab_apply, Ideal.ofBits_def, edge_kernel]
  unfold adj dinv deg ahat
  refine congrArg₂ (· * ·) (congrArg₂ (· * ·) (congrArg Ideal.rsqrt (Finset.sum_congr rfl fun d _ => ?_)) ?_)
    (congrArg Ideal.rsqrt (Finset.sum_congr rfl fun d _ => ?_))
  all_goals rw [eye_entry]

/-- The output of layer 2 (layer 1 inside it). -/
theorem pay3_apply (x0 : Vec Ideal S1x128x128 .f32) (x2 : Vec Ideal S128x128 .f32) (x3 : Vec Ideal S1x128 .f32)
    (x4 : Vec Ideal S128x128 .f32) (x5 : Vec Ideal S1x128 .f32) (n j : Fin 128) :
    k0_pay3 x0 x2 x3 x4 x5 (ix2 n j)
      = h2 (fun a b => x0 (ix3 (0 : Fin 1) a b)) (fun k l => x2 (ix2 k l)) (fun l => x3 (ix2 (0 : Fin 1) l))
          (fun k l => x4 (ix2 k l)) (fun l => x5 (ix2 (0 : Fin 1) l)) n j := by
  unfold k0_pay3
  simp only [maximumf_apply, addf_apply, mm_nn, broadcastTo_1b_ab_apply, shapeCast_self, broadcast_apply, pay2_apply,
    Ideal.ofBits_def, Ideal.ofBits_zero_f32]
  rfl

/-- Layer 3 over any adjacency block `a` and features `p`: `a · (p · w) + b`. -/
theorem pay4_apply (a p : FVec Ideal S128x128 .f32) (w : Vec Ideal S128x128 .f32) (b : Vec Ideal S1x128 .f32) (n j : Fin 128) :
    k0_pay4 a p w (constant S128x128 .f32 0x00000000#32) b (ix2 n j)
      = (∑ k : Fin 128, a (ix2 n k) * ∑ l : Fin 128, p (ix2 k l) * w (ix2 l j)) + b (ix2 (0 : Fin 1) j) := by
  unfold k0_pay4
  simp only [addf_apply, mm_nn, broadcastTo_1b_ab_apply, shapeCast_self]

/-- A per-node vector `h · (e · v)`, for a 128 × 128 block `e` of a scoring table and a column `v` (first of two payloads of this form). -/
theorem pay5_apply (a p : FVec Ideal S128x128 .f32) (w : Vec Ideal S128x128 .f32) (b : Vec Ideal S1x128 .f32)
    (v : Vec Ideal S128x1 .f32) (e : Vec Ideal S128x128 .f32) (n : Fin 128) :
    k0_pay5 a p w (constant S128x128 .f32 0x00000000#32) b v e (ix2 n (0 : Fin 1))
      = ∑ f : Fin 128, k0_pay4 a p w (constant S128x128 .f32 0x00000000#32) b (ix2 n f) * ∑ g : Fin 128, e (ix2 f g) * v (ix2 g (0 : Fin 1)) := by
  unfold k0_pay5
  simp only [mm_n1]

/-- A per-node vector `h · (e · v)` (second of the two payloads of this form: the body passes the table's other half). -/
theorem pay6_apply (a p : FVec Ideal S128x128 .f32) (w : Vec Ideal S128x128 .f32) (b : Vec Ideal S1x128 .f32)
    (v : Vec Ideal S128x1 .f32) (e : Vec Ideal S128x128 .f32) (n : Fin 128) :
    k0_pay6 a p w (constant S128x128 .f32 0x00000000#32) b v e (ix2 n (0 : Fin 1))
      = ∑ f : Fin 128, k0_pay4 a p w (constant S128x128 .f32 0x00000000#32) b (ix2 n f) * ∑ g : Fin 128, e (ix2 f g) * v (ix2 g (0 : Fin 1)) := by
  unfold k0_pay6
  simp only [mm_n1]

/-- The first layer of the time embedding, through GELU. -/
theorem pay7_apply (s : Vec Ideal S1x1 .f32) (w b : Vec Ideal S1x128 .f32) (j : Fin 128) :
    k0_pay7 s w b (ix2 (0 : Fin 1) j)
      = gelu (s (ix2 (0 : Fin 1) (0 : Fin 1)) * w (ix2 (0 : Fin 1) j) + b (ix2 (0 : Fin 1) j)) := by
  unfold k0_pay7
  simp only [mulf_apply, addf_apply, tanh_apply, broadcast_apply, mm_11n, shapeCast_self, Ideal.ofBits_def, Fin.sum_univ_one]
  rfl

/-- The stored value at `(n, m)`: the two per-node terms plus the per-graph scalar. -/
theorem pay1_apply (v44 : Vec Ideal S128x1 .f32) (v49 v50 : FVec Ideal S128x1 .f32) (v70 : FVec Ideal S1x128 .f32)
    (v71 : Vec Ideal S128x128 .f32) (v73 : Vec Ideal S1x128 .f32) (v76 : Vec Ideal S128x1 .f32) (v79 : Vec Ideal S1x128 .f32)
    (v84 : Vec Ideal S1x1 .f32) (n m : Fin 128) :
    k0_pay1 v44 v49 v50 v70 v71 (constant S1x128 .f32 0x00000000#32) v73 v76 v79 v84 (ix3 (0 : Fin 1) n m)
      = (v49 (ix2 n (0 : Fin 1)) + v50 (ix2 m (0 : Fin 1)))
        + (((∑ k : Fin 128, ((∑ l : Fin 128, v70 (ix2 (0 : Fin 1) l) * v71 (ix2 l k)) + v73 (ix2 (0 : Fin 1) k)) * v76 (ix2 k (0 : Fin 1)))
            + ∑ k : Fin 128, v79 (ix2 (0 : Fin 1) k) * v44 (ix2 k (0 : Fin 1)))
          + v84 (ix2 (0 : Fin 1) (0 : Fin 1))) := by
  unfold k0_pay1
  simp only [shapeCast_ab_1ab_apply, addf_apply, broadcast_apply, broadcastTo_a1_ab_apply, broadcastTo_1b_ab_apply,
    shapeCast_a1_1a_apply, extract00, mm_1n1, mm_1nn, shapeCast_self, Ideal.scalar_addf_def]

end Cert.KernelIdeal.Hand

end
-- ==== Proof.KernelPoint.lean ====
/-
  One grid point's stored block, entry by entry, is the folded pair score of the specification applied to the blocks.

  The partial loads read the two 128-row halves of the 256-row scoring tables and, of the 64 time stamps, the row of the
  current graph (the grid coordinate). With the payload readings of KernelValue.lean the stored value at (0, n, m) is
  `outK` of the third-layer features and the time embedding computed from the loaded blocks.
-/
import proofs.«174631_g79482664780415_cont_9to1_m_1303_2_alg».proof.Proof.KernelBody
import proofs.«174631_g79482664780415_cont_9to1_m_1303_2_alg».proof.Proof.KernelValue

noncomputable section

open scoped BigOperators
open Idealize.ShloMosaic Idealize.ShloMosaic.ValueIdx

namespace Cert.KernelIdeal.Hand

open Cert.KernelIdeal Cert.KernelIdeal.Gen Cert.KernelIdeal.Facts Cert.GcnEdge

/-! ## The partial loads -/

/-- Rows 0–127 of the 256 × 1 column. -/
theorem idx_col_lo (g : Fin 128) :
    (Rect.unit (s := S256x1) ![0, 0] ![128, 1] inb_S256x1_S128x1_0_0).idx (ix2 g (0 : Fin 1)) = ix2 (lo g) (0 : Fin 1) :=
  funext fun a => Fin.ext (by
    match a with
    | ⟨0, _⟩ => show 0 + 1 * g.val = g.val; omega
    | ⟨1, _⟩ => rfl)

/-- Rows 128–255 of the 256 × 1 column. -/
theorem idx_col_hi (g : Fin 128) :
    (Rect.unit (s := S256x1) ![128, 0] ![128, 1] inb_S256x1_S128x1_128_0).idx (ix2 g (0 : Fin 1)) = ix2 (hi g) (0 : Fin 1) :=
  funext fun a => Fin.ext (by
    match a with
    | ⟨0, _⟩ => show 128 + 1 * g.val = 128 + g.val; omega
    | ⟨1, _⟩ => rfl)

/-- Rows 0–127 of the 256 × 128 table. -/
theorem idx_tab_lo (f g : Fin 128) :
    (Rect.unit (s := S256x128) ![0, 0] ![128, 128] inb_S256x128_S128x128_0_0).idx (ix2 f g) = ix2 (lo f) g :=
  funext fun a => Fin.ext (by
    match a with
    | ⟨0, _⟩ => show 0 + 1 * f.val = f.val; omega
    | ⟨1, _⟩ => show 0 + 1 * g.val = g.val; omega)

/-- Rows 128–255 of the 256 × 128 table. -/
theorem idx_tab_hi (f g : Fin 128) :
    (Rect.unit (s := S256x128) ![128, 0] ![128, 128] inb_S256x128_S128x128_128_0).idx (ix2 f g) = ix2 (hi f) g :=
  funext fun a => Fin.ext (by
    match a with
    | ⟨0, _⟩ => show 128 + 1 * f.val = 128 + f.val; omega
    | ⟨1, _⟩ => show 0 + 1 * g.val = g.val; omega)

/-- The row of the time stamps that the grid coordinate names. -/
theorem idx_time (i : grid0.Coords) (b : Fin 64) (hb : (i 0).val = b.val) :
    (Rect.unit (s := S64x1) (k0_off1 i) ![1, 1] (k0_off1_inb i)).idx (ix2 (0 : Fin 1) (0 : Fin 1)) = ix2 b (0 : Fin 1) :=
  funext fun a => Fin.ext (by
    match a with
    | ⟨0, _⟩ =>
      show (BitVec.ofNat 32 (i 0).val).toNat + 1 * 0 = b.val
      rw [BitVec.toNat_ofNat, hb]
      have := b.isLt
      omega
    | ⟨1, _⟩ => rfl)

/-! ## The stored block -/

/-- The stored block at `(0, n, m)`, for the graph `b` the grid coordinate names. -/
theorem body_apply (i : grid0.Coords) (b : Fin 64) (hb : (i 0).val = b.val) (x0 : Vec Ideal S1x128x128 .f32) (x1 : Vec Ideal S64x1 .f32) (x2 : Vec Ideal S128x128 .f32) (x3 : Vec Ideal S1x128 .f32) (x4 : Vec Ideal S128x128 .f32) (x5 : Vec Ideal S1x128 .f32) (x6 : Vec Ideal S128x128 .f32) (x7 : Vec Ideal S1x128 .f32) (x8 : Vec Ideal S1x128 .f32) (x9 : Vec Ideal S1x128 .f32) (x10 : Vec Ideal S128x128 .f32) (x11 : Vec Ideal S1x128 .f32) (x12 : Vec Ideal S256x128 .f32) (x13 : Vec Ideal S1x128 .f32) (x14 : Vec Ideal S256x1 .f32) (x15 : Vec Ideal S1x1 .f32) (n m : Fin 128) :
    body i x0 x1 x2 x3 x4 x5 x6 x7 x8 x9 x10 x11 x12 x13 x14 x15 (ix3 (0 : Fin 1) n m)
      = outK (h3 (fun a c => x0 (ix3 (0 : Fin 1) a c)) (fun k l => x2 (ix2 k l)) (fun l => x3 (ix2 (0 : Fin 1) l))
          (fun k l => x4 (ix2 k l)) (fun l => x5 (ix2 (0 : Fin 1) l)) (fun k l => x6 (ix2 k l)) (fun l => x7 (ix2 (0 : Fin 1) l)))
        (te (x1 (ix2 b (0 : Fin 1))) (fun k => x8 (ix2 (0 : Fin 1) k)) (fun k => x9 (ix2 (0 : Fin 1) k)) (fun k l => x10 (ix2 k l))
          (fun l => x11 (ix2 (0 : Fin 1) l)))
        (fun f g => x12 (ix2 f g)) (fun g => x13 (ix2 (0 : Fin 1) g)) (fun g => x14 (ix2 g (0 : Fin 1)))
        (x15 (ix2 (0 : Fin 1) (0 : Fin 1))) n m := by
  unfold body
  rw [pay1_apply]
  simp only [pay5_apply, pay6_apply, pay4_apply, pay3_apply, pay2_apply, pay7_apply, View.ld, idx_col_lo, idx_col_hi, idx_tab_lo, idx_tab_hi,
    idx_time i b hb]
  rfl

end Cert.KernelIdeal.Hand

end
-- ==== Proof.KernelArray.lean ====
/-
  From blocks to the array: after the run the kernel's result array is, entry by entry, the folded pair score `GK` of the
  argument arrays.

  The grid has one point per graph. At point t the graph window's block is slab t of the 64 × 128 × 128 view of the
  flat table (so its entry (0, a, c) is the table's entry (t, 128 a + c)), every other input window is its whole array
  (the biases as the host's one-row views of the argument vectors), and the output window's block is slab t of the
  result. So what point t writes back is `GK` read through its block, and the 64 slabs cover the result.
-/
import proofs.«174631_g79482664780415_cont_9to1_m_1303_2_alg».proof.Proof.Gen.KernelIdeal.Value
import proofs.«174631_g79482664780415_cont_9to1_m_1303_2_alg».proof.Proof.KernelPoint
import proofs.«174631_g79482664780415_cont_9to1_m_1303_2_alg».proof.Proof.SpecArrays
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.GcnEdge

variable (m : (ℓ : Loc nD τ sig) → Buf (Elt Ideal) ℓ) (ρ : Dev nD → PrngReg)

/-- The index maps, decided over the grid: the graph window and the output window move with the point along their first
    axis; every other window stays at block (0, 0); the grid coordinate is the point's number. -/
theorem idx_facts : ∀ t : Fin cfg0.N, win0_0.index t (0 : Fin 3) = t.val
    ∧ win0_0.index t (1 : Fin 3) = 0
    ∧ win0_0.index t (2 : Fin 3) = 0
    ∧ win0_16.index t (0 : Fin 3) = t.val
    ∧ win0_16.index t (1 : Fin 3) = 0
    ∧ win0_16.index t (2 : Fin 3) = 0
    ∧ (grid0.coords t 0).val = t.val
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0
    ∧ win0_14.index t (0 : Fin 2) = 0
    ∧ win0_14.index t (1 : Fin 2) = 0
    ∧ win0_15.index t (0 : Fin 2) = 0
    ∧ win0_15.index t (1 : Fin 2) = 0 :=
  (by decide +kernel : ∀ t : Fin grid0.N, _)

/-- The graph a point works on. -/
def graphIx (t : Fin cfg0.N) : Fin 64 := ⟨t.val, by have h := t.isLt; have hN : cfg0.N = 64 := N_0; omega⟩

/-! ## The arrays the region finds -/

/-- The graph table as the region finds it: the flat 64 × 16384 argument viewed as 64 × 128 × 128. -/
theorem V_graphs (c : Dev nD) : (V m c main_v0 : S64x128x128.Idx → EReal)
    = shapeCast S64x128x128 (m ((c : Thread nD τ).loc main_arg0)) shapeCasts_S64x16384_S64x128x128 := by
  dsimp only [Gen.V, Gen.hostOps0]; after_results; rfl
/-- A bias as the region finds it: the vector viewed as one row. -/
theorem V_main_v1 (c : Dev nD) : (V m c main_v1 : S1x128.Idx → EReal)
    = shapeCast S1x128 (m ((c : Thread nD τ).loc main_arg3)) shapeCasts_S128_S1x128 := by
  dsimp only [Gen.V, Gen.hostOps0]; after_results; rfl
/-- A bias as the region finds it: the vector viewed as one row. -/
theorem V_main_v2 (c : Dev nD) : (V m c main_v2 : S1x128.Idx → EReal)
    = shapeCast S1x128 (m ((c : Thread nD τ).loc main_arg5)) shapeCasts_S128_S1x128 := by
  dsimp only [Gen.V, Gen.hostOps0]; after_results; rfl
/-- A bias as the region finds it: the vector viewed as one row. -/
theorem V_main_v3 (c : Dev nD) : (V m c main_v3 : S1x128.Idx → EReal)
    = shapeCast S1x128 (m ((c : Thread nD τ).loc main_arg7)) shapeCasts_S128_S1x128 := by
  dsimp only [Gen.V, Gen.hostOps0]; after_results; rfl
/-- A bias as the region finds it: the vector viewed as one row. -/
theorem V_main_v4 (c : Dev nD) : (V m c main_v4 : S1x128.Idx → EReal)
    = shapeCast S1x128 (m ((c : Thread nD τ).loc main_arg9)) shapeCasts_S128_S1x128 := by
  dsimp only [Gen.V, Gen.hostOps0]; after_results; rfl
/-- A bias as the region finds it: the vector viewed as one row. -/
theorem V_main_v5 (c : Dev nD) : (V m c main_v5 : S1x128.Idx → EReal)
    = shapeCast S1x128 (m ((c : Thread nD τ).loc main_arg11)) shapeCasts_S128_S1x128 := by
  dsimp only [Gen.V, Gen.hostOps0]; after_results; rfl
/-- A bias as the region finds it: the vector viewed as one row. -/
theorem V_main_v6 (c : Dev nD) : (V m c main_v6 : S1x128.Idx → EReal)
    = shapeCast S1x128 (m ((c : Thread nD τ).loc main_arg13)) shapeCasts_S128_S1x128 := by
  dsimp only [Gen.V, Gen.hostOps0]; after_results; rfl
/-- A bias as the region finds it: the vector viewed as one row. -/
theorem V_main_v7 (c : Dev nD) : (V m c main_v7 : S1x1.Idx → EReal)
    = shapeCast S1x1 (m ((c : Thread nD τ).loc main_arg15)) shapeCasts_S1_S1x1 := by
  dsimp only [Gen.V, Gen.hostOps0]; after_results; rfl

/-! ## The input blocks -/

/-- The graph window's block at point t is graph t of the flat table. -/
theorem blk0 (c : Dev nD) (t : Fin cfg0.N) (a b : Fin 128) :
    iblk m c 0 t (ix3 (0 : Fin 1) a b) = graphOf (m ((c : Thread nD τ).loc main_arg0)) (graphIx t) a b := by
  obtain ⟨e0, e1, e2, e3, e4, e5, e6, e7, e8, e9, e10, e11, e12, e13, e14, e15, e16, e17, e18, e19, e20, e21, e22, e23, e24, e25, e26, e27, e28, e29, e30, e31, e32, e33, e34, e35, e36⟩ := idx_facts t
  have h : iblk m c 0 t (ix3 (0 : Fin 1) a b) = V m c main_v0 (ix3 (graphIx t) a b) := by
    show V m c main_v0 (((cfg0.win 0).blk t).view.emb (ix3 (0 : Fin 1) a b)) = V m c main_v0 (ix3 (graphIx t) a b)
    refine congrArg _ (funext fun d => Fin.ext ?_)
    match d with
    | ⟨0, _⟩ => show win0_0.index t (0 : Fin 3) * 1 + 1 * 0 = t.val; omega
    | ⟨1, _⟩ => show win0_0.index t (1 : Fin 3) * 128 + 1 * a.val = a.val; omega
    | ⟨2, _⟩ => show win0_0.index t (2 : Fin 3) * 128 + 1 * b.val = b.val; omega
  rw [h, V_graphs]
  unfold graphOf
  refine shapeCast_apply _ _ _ _ ?_
  show (S64x16384.rowMajor (ix2 (graphIx t) ⟨a.val * 128 + b.val, by have := a.isLt; have := b.isLt; omega⟩)).val
    = (S64x128x128.rowMajor (ix3 (graphIx t) a b)).val
  rw [Shape.rowMajor_val_two, Shape.rowMajor_val_three]
  show t.val * 16384 + (a.val * 128 + b.val) = (t.val * 128 + a.val) * 128 + b.val
  omega

/-- Window 1's block is the whole array. -/
theorem blk1 (c : Dev nD) (t : Fin cfg0.N) (k : Fin 64) (l : Fin 1) :
    iblk m c 1 t (ix2 k l) = m ((c : Thread nD τ).loc main_arg1) (ix2 k l) := by
  obtain ⟨e0, e1, e2, e3, e4, e5, e6, e7, e8, e9, e10, e11, e12, e13, e14, e15, e16, e17, e18, e19, e20, e21, e22, e23, e24, e25, e26, e27, e28, e29, e30, e31, e32, e33, e34, e35, e36⟩ := idx_facts t
  have h : iblk m c 1 t (ix2 k l) = V m c main_arg1 (ix2 k l) := by
    show V m c main_arg1 (((cfg0.win 1).blk t).view.emb (ix2 k l)) = V m c main_arg1 (ix2 k l)
    refine congrArg _ (funext fun a => Fin.ext ?_)
    match a with
    | ⟨0, _⟩ => show win0_1.index t (0 : Fin 2) * 64 + 1 * k.val = k.val; omega
    | ⟨1, _⟩ => show win0_1.index t (1 : Fin 2) * 1 + 1 * l.val = l.val; omega
  rw [h, V_main_arg1]

/-- Window 2's block is the whole array. -/
theorem blk2 (c : Dev nD) (t : Fin cfg0.N) (k : Fin 128) (l : Fin 128) :
    iblk m c 2 t (ix2 k l) = m ((c : Thread nD τ).loc main_arg2) (ix2 k l) := by
  obtain ⟨e0, e1, e2, e3, e4, e5, e6, e7, e8, e9, e10, e11, e12, e13, e14, e15, e16, e17, e18, e19, e20, e21, e22, e23, e24, e25, e26, e27, e28, e29, e30, e31, e32, e33, e34, e35, e36⟩ := idx_facts t
  have h : iblk m c 2 t (ix2 k l) = V m c main_arg2 (ix2 k l) := by
    show V m c main_arg2 (((cfg0.win 2).blk t).view.emb (ix2 k l)) = V m c main_arg2 (ix2 k l)
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * l.val = l.val; omega
  rw [h, V_main_arg2]

/-- Window 3's block is the one-row view of an argument vector: its entry (k, l) is the vector's entry l. -/
theorem blk3 (c : Dev nD) (t : Fin cfg0.N) (k : Fin 1) (l : Fin 128) :
    iblk m c 3 t (ix2 k l) = m ((c : Thread nD τ).loc main_arg3) (ix1 l) := by
  obtain ⟨e0, e1, e2, e3, e4, e5, e6, e7, e8, e9, e10, e11, e12, e13, e14, e15, e16, e17, e18, e19, e20, e21, e22, e23, e24, e25, e26, e27, e28, e29, e30, e31, e32, e33, e34, e35, e36⟩ := idx_facts t
  have h : iblk m c 3 t (ix2 k l) = V m c main_v1 (ix2 k l) := by
    show V m c main_v1 (((cfg0.win 3).blk t).view.emb (ix2 k l)) = V m c main_v1 (ix2 k l)
    refine congrArg _ (funext fun a => Fin.ext ?_)
    match a with
    | ⟨0, _⟩ => show win0_3.index t (0 : Fin 2) * 1 + 1 * k.val = k.val; omega
    | ⟨1, _⟩ => show win0_3.index t (1 : Fin 2) * 128 + 1 * l.val = l.val; omega
  rw [h, V_main_v1]
  exact shapeCast_a_1a_apply _ _ k l
/-- Window 4's block is the whole array. -/
theorem blk4 (c : Dev nD) (t : Fin cfg0.N) (k : Fin 128) (l : Fin 128) :
    iblk m c 4 t (ix2 k l) = m ((c : Thread nD τ).loc main_arg4) (ix2 k l) := by
  obtain ⟨e0, e1, e2, e3, e4, e5, e6, e7, e8, e9, e10, e11, e12, e13, e14, e15, e16, e17, e18, e19, e20, e21, e22, e23, e24, e25, e26, e27, e28, e29, e30, e31, e32, e33, e34, e35, e36⟩ := idx_facts t
  have h : iblk m c 4 t (ix2 k l) = V m c main_arg4 (ix2 k l) := by
    show V m c main_arg4 (((cfg0.win 4).blk t).view.emb (ix2 k l)) = V m c main_arg4 (ix2 k l)
    refine congrArg _ (funext fun a => Fin.ext ?_)
    match a with
    | ⟨0, _⟩ => show win0_4.index t (0 : Fin 2) * 128 + 1 * k.val = k.val; omega
    | ⟨1, _⟩ => show win0_4.index t (1 : Fin 2) * 128 + 1 * l.val = l.val; omega
  rw [h, V_main_arg4]

/-- Window 5's block is the one-row view of an argument vector: its entry (k, l) is the vector's entry l. -/
theorem blk5 (c : Dev nD) (t : Fin cfg0.N) (k : Fin 1) (l : Fin 128) :
    iblk m c 5 t (ix2 k l) = m ((c : Thread nD τ).loc main_arg5) (ix1 l) := by
  obtain ⟨e0, e1, e2, e3, e4, e5, e6, e7, e8, e9, e10, e11, e12, e13, e14, e15, e16, e17, e18, e19, e20, e21, e22, e23, e24, e25, e26, e27, e28, e29, e30, e31, e32, e33, e34, e35, e36⟩ := idx_facts t
  have h : iblk m c 5 t (ix2 k l) = V m c main_v2 (ix2 k l) := by
    show V m c main_v2 (((cfg0.win 5).blk t).view.emb (ix2 k l)) = V m c main_v2 (ix2 k l)
    refine congrArg _ (funext fun a => Fin.ext ?_)
    match a with
    | ⟨0, _⟩ => show win0_5.index t (0 : Fin 2) * 1 + 1 * k.val = k.val; omega
    | ⟨1, _⟩ => show win0_5.index t (1 : Fin 2) * 128 + 1 * l.val = l.val; omega
  rw [h, V_main_v2]
  exact shapeCast_a_1a_apply _ _ k l
/-- Window 6's block is the whole array. -/
theorem blk6 (c : Dev nD) (t : Fin cfg0.N) (k : Fin 128) (l : Fin 128) :
    iblk m c 6 t (ix2 k l) = m ((c : Thread nD τ).loc main_arg6) (ix2 k l) := by
  obtain ⟨e0, e1, e2, e3, e4, e5, e6, e7, e8, e9, e10, e11, e12, e13, e14, e15, e16, e17, e18, e19, e20, e21, e22, e23, e24, e25, e26, e27, e28, e29, e30, e31, e32, e33, e34, e35, e36⟩ := idx_facts t
  have h : iblk m c 6 t (ix2 k l) = V m c main_arg6 (ix2 k l) := by
    show V m c main_arg6 (((cfg0.win 6).blk t).view.emb (ix2 k l)) = V m c main_arg6 (ix2 k l)
    refine congrArg _ (funext fun a => Fin.ext ?_)
    match a with
    | ⟨0, _⟩ => show win0_6.index t (0 : Fin 2) * 128 + 1 * k.val = k.val; omega
    | ⟨1, _⟩ => show win0_6.index t (1 : Fin 2) * 128 + 1 * l.val = l.val; omega
  rw [h, V_main_arg6]

/-- Window 7's block is the one-row view of an argument vector: its entry (k, l) is the vector's entry l. -/
theorem blk7 (c : Dev nD) (t : Fin cfg0.N) (k : Fin 1) (l : Fin 128) :
    iblk m c 7 t (ix2 k l) = m ((c : Thread nD τ).loc main_arg7) (ix1 l) := by
  obtain ⟨e0, e1, e2, e3, e4, e5, e6, e7, e8, e9, e10, e11, e12, e13, e14, e15, e16, e17, e18, e19, e20, e21, e22, e23, e24, e25, e26, e27, e28, e29, e30, e31, e32, e33, e34, e35, e36⟩ := idx_facts t
  have h : iblk m c 7 t (ix2 k l) = V m c main_v3 (ix2 k l) := by
    show V m c main_v3 (((cfg0.win 7).blk t).view.emb (ix2 k l)) = V m c main_v3 (ix2 k l)
    refine congrArg _ (funext fun a => Fin.ext ?_)
    match a with
    | ⟨0, _⟩ => show win0_7.index t (0 : Fin 2) * 1 + 1 * k.val = k.val; omega
    | ⟨1, _⟩ => show win0_7.index t (1 : Fin 2) * 128 + 1 * l.val = l.val; omega
  rw [h, V_main_v3]
  exact shapeCast_a_1a_apply _ _ k l
/-- Window 8's block is the whole array. -/
theorem blk8 (c : Dev nD) (t : Fin cfg0.N) (k : Fin 1) (l : Fin 128) :
    iblk m c 8 t (ix2 k l) = m ((c : Thread nD τ).loc main_arg8) (ix2 k l) := by
  obtain ⟨e0, e1, e2, e3, e4, e5, e6, e7, e8, e9, e10, e11, e12, e13, e14, e15, e16, e17, e18, e19, e20, e21, e22, e23, e24, e25, e26, e27, e28, e29, e30, e31, e32, e33, e34, e35, e36⟩ := idx_facts t
  have h : iblk m c 8 t (ix2 k l) = V m c main_arg8 (ix2 k l) := by
    show V m c main_arg8 (((cfg0.win 8).blk t).view.emb (ix2 k l)) = V m c main_arg8 (ix2 k l)
    refine congrArg _ (funext fun a => Fin.ext ?_)
    match a with
    | ⟨0, _⟩ => show win0_8.index t (0 : Fin 2) * 1 + 1 * k.val = k.val; omega
    | ⟨1, _⟩ => show win0_8.index t (1 : Fin 2) * 128 + 1 * l.val = l.val; omega
  rw [h, V_main_arg8]

/-- Window 9's block is the one-row view of an argument vector: its entry (k, l) is the vector's entry l. -/
theorem blk9 (c : Dev nD) (t : Fin cfg0.N) (k : Fin 1) (l : Fin 128) :
    iblk m c 9 t (ix2 k l) = m ((c : Thread nD τ).loc main_arg9) (ix1 l) := by
  obtain ⟨e0, e1, e2, e3, e4, e5, e6, e7, e8, e9, e10, e11, e12, e13, e14, e15, e16, e17, e18, e19, e20, e21, e22, e23, e24, e25, e26, e27, e28, e29, e30, e31, e32, e33, e34, e35, e36⟩ := idx_facts t
  have h : iblk m c 9 t (ix2 k l) = V m c main_v4 (ix2 k l) := by
    show V m c main_v4 (((cfg0.win 9).blk t).view.emb (ix2 k l)) = V m c main_v4 (ix2 k l)
    refine congrArg _ (funext fun a => Fin.ext ?_)
    match a with
    | ⟨0, _⟩ => show win0_9.index t (0 : Fin 2) * 1 + 1 * k.val = k.val; omega
    | ⟨1, _⟩ => show win0_9.index t (1 : Fin 2) * 128 + 1 * l.val = l.val; omega
  rw [h, V_main_v4]
  exact shapeCast_a_1a_apply _ _ k l
/-- Window 10's block is the whole array. -/
theorem blk10 (c : Dev nD) (t : Fin cfg0.N) (k : Fin 128) (l : Fin 128) :
    iblk m c 10 t (ix2 k l) = m ((c : Thread nD τ).loc main_arg10) (ix2 k l) := by
  obtain ⟨e0, e1, e2, e3, e4, e5, e6, e7, e8, e9, e10, e11, e12, e13, e14, e15, e16, e17, e18, e19, e20, e21, e22, e23, e24, e25, e26, e27, e28, e29, e30, e31, e32, e33, e34, e35, e36⟩ := idx_facts t
  have h : iblk m c 10 t (ix2 k l) = V m c main_arg10 (ix2 k l) := by
    show V m c main_arg10 (((cfg0.win 10).blk t).view.emb (ix2 k l)) = V m c main_arg10 (ix2 k l)
    refine congrArg _ (funext fun a => Fin.ext ?_)
    match a with
    | ⟨0, _⟩ => show win0_10.index t (0 : Fin 2) * 128 + 1 * k.val = k.val; omega
    | ⟨1, _⟩ => show win0_10.index t (1 : Fin 2) * 128 + 1 * l.val = l.val; omega
  rw [h, V_main_arg10]

/-- Window 11's block is the one-row view of an argument vector: its entry (k, l) is the vector's entry l. -/
theorem blk11 (c : Dev nD) (t : Fin cfg0.N) (k : Fin 1) (l : Fin 128) :
    iblk m c 11 t (ix2 k l) = m ((c : Thread nD τ).loc main_arg11) (ix1 l) := by
  obtain ⟨e0, e1, e2, e3, e4, e5, e6, e7, e8, e9, e10, e11, e12, e13, e14, e15, e16, e17, e18, e19, e20, e21, e22, e23, e24, e25, e26, e27, e28, e29, e30, e31, e32, e33, e34, e35, e36⟩ := idx_facts t
  have h : iblk m c 11 t (ix2 k l) = V m c main_v5 (ix2 k l) := by
    show V m c main_v5 (((cfg0.win 11).blk t).view.emb (ix2 k l)) = V m c main_v5 (ix2 k l)
    refine congrArg _ (funext fun a => Fin.ext ?_)
    match a with
    | ⟨0, _⟩ => show win0_11.index t (0 : Fin 2) * 1 + 1 * k.val = k.val; omega
    | ⟨1, _⟩ => show win0_11.index t (1 : Fin 2) * 128 + 1 * l.val = l.val; omega
  rw [h, V_main_v5]
  exact shapeCast_a_1a_apply _ _ k l
/-- Window 12's block is the whole array. -/
theorem blk12 (c : Dev nD) (t : Fin cfg0.N) (k : Fin 256) (l : Fin 128) :
    iblk m c 12 t (ix2 k l) = m ((c : Thread nD τ).loc main_arg12) (ix2 k l) := by
  obtain ⟨e0, e1, e2, e3, e4, e5, e6, e7, e8, e9, e10, e11, e12, e13, e14, e15, e16, e17, e18, e19, e20, e21, e22, e23, e24, e25, e26, e27, e28, e29, e30, e31, e32, e33, e34, e35, e36⟩ := idx_facts t
  have h : iblk m c 12 t (ix2 k l) = V m c main_arg12 (ix2 k l) := by
    show V m c main_arg12 (((cfg0.win 12).blk t).view.emb (ix2 k l)) = V m c main_arg12 (ix2 k l)
    refine congrArg _ (funext fun a => Fin.ext ?_)
    match a with
    | ⟨0, _⟩ => show win0_12.index t (0 : Fin 2) * 256 + 1 * k.val = k.val; omega
    | ⟨1, _⟩ => show win0_12.index t (1 : Fin 2) * 128 + 1 * l.val = l.val; omega
  rw [h, V_main_arg12]

/-- Window 13's block is the one-row view of an argument vector: its entry (k, l) is the vector's entry l. -/
theorem blk13 (c : Dev nD) (t : Fin cfg0.N) (k : Fin 1) (l : Fin 128) :
    iblk m c 13 t (ix2 k l) = m ((c : Thread nD τ).loc main_arg13) (ix1 l) := by
  obtain ⟨e0, e1, e2, e3, e4, e5, e6, e7, e8, e9, e10, e11, e12, e13, e14, e15, e16, e17, e18, e19, e20, e21, e22, e23, e24, e25, e26, e27, e28, e29, e30, e31, e32, e33, e34, e35, e36⟩ := idx_facts t
  have h : iblk m c 13 t (ix2 k l) = V m c main_v6 (ix2 k l) := by
    show V m c main_v6 (((cfg0.win 13).blk t).view.emb (ix2 k l)) = V m c main_v6 (ix2 k l)
    refine congrArg _ (funext fun a => Fin.ext ?_)
    match a with
    | ⟨0, _⟩ => show win0_13.index t (0 : Fin 2) * 1 + 1 * k.val = k.val; omega
    | ⟨1, _⟩ => show win0_13.index t (1 : Fin 2) * 128 + 1 * l.val = l.val; omega
  rw [h, V_main_v6]
  exact shapeCast_a_1a_apply _ _ k l
/-- Window 14's block is the whole array. -/
theorem blk14 (c : Dev nD) (t : Fin cfg0.N) (k : Fin 256) (l : Fin 1) :
    iblk m c 14 t (ix2 k l) = m ((c : Thread nD τ).loc main_arg14) (ix2 k l) := by
  obtain ⟨e0, e1, e2, e3, e4, e5, e6, e7, e8, e9, e10, e11, e12, e13, e14, e15, e16, e17, e18, e19, e20, e21, e22, e23, e24, e25, e26, e27, e28, e29, e30, e31, e32, e33, e34, e35, e36⟩ := idx_facts t
  have h : iblk m c 14 t (ix2 k l) = V m c main_arg14 (ix2 k l) := by
    show V m c main_arg14 (((cfg0.win 14).blk t).view.emb (ix2 k l)) = V m c main_arg14 (ix2 k l)
    refine congrArg _ (funext fun a => Fin.ext ?_)
    match a with
    | ⟨0, _⟩ => show win0_14.index t (0 : Fin 2) * 256 + 1 * k.val = k.val; omega
    | ⟨1, _⟩ => show win0_14.index t (1 : Fin 2) * 1 + 1 * l.val = l.val; omega
  rw [h, V_main_arg14]

/-- Window 15's block is the one-row view of an argument vector: its entry (k, l) is the vector's entry l. -/
theorem blk15 (c : Dev nD) (t : Fin cfg0.N) (k : Fin 1) (l : Fin 1) :
    iblk m c 15 t (ix2 k l) = m ((c : Thread nD τ).loc main_arg15) (ix1 l) := by
  obtain ⟨e0, e1, e2, e3, e4, e5, e6, e7, e8, e9, e10, e11, e12, e13, e14, e15, e16, e17, e18, e19, e20, e21, e22, e23, e24, e25, e26, e27, e28, e29, e30, e31, e32, e33, e34, e35, e36⟩ := idx_facts t
  have h : iblk m c 15 t (ix2 k l) = V m c main_v7 (ix2 k l) := by
    show V m c main_v7 (((cfg0.win 15).blk t).view.emb (ix2 k l)) = V m c main_v7 (ix2 k l)
    refine congrArg _ (funext fun a => Fin.ext ?_)
    match a with
    | ⟨0, _⟩ => show win0_15.index t (0 : Fin 2) * 1 + 1 * k.val = k.val; omega
    | ⟨1, _⟩ => show win0_15.index t (1 : Fin 2) * 1 + 1 * l.val = l.val; omega
  rw [h, V_main_v7]
  exact shapeCast_a_1a_apply _ _ k l

/-! ## What a point writes back -/

/-- The result array's contents the run is shown to leave: the folded pair score of graph `i 0` at `(i 1, i 2)`. -/
def Gfun (c : Dev nD) : S64x128x128.Idx → EReal := fun i =>
  GK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (i 0) (i 1) (i 2)

/-- What point t writes back is `Gfun` read through the point's output block. -/
theorem flushed_eq (c : Dev nD) (t : Fin cfg0.N) :
    (dats m 0 c).flushed 16 t = ((cfg0.win 16).blk t).view.read (Elt Ideal) (Gfun m c) := by
  obtain ⟨e0, e1, e2, e3, e4, e5, e6, e7, e8, e9, e10, e11, e12, e13, e14, e15, e16, e17, e18, e19, e20, e21, e22, e23, e24, e25, e26, e27, e28, e29, e30, e31, e32, e33, e34, e35, e36⟩ := idx_facts t
  rw [Cert.KernelIdeal.Value.flushed16_A, out_A]
  funext j
  obtain ⟨u, n, k, rfl⟩ : ∃ (u : Fin 1) (n k : Fin 128), j = ix3 u n k := ⟨j 0, j 1, j 2, eq_ix3 j⟩
  obtain rfl : u = 0 := Subsingleton.elim _ _
  have hemb : ((cfg0.win 16).blk t).view.emb (ix3 (0 : Fin 1) n k) = ix3 (graphIx t) n k := funext fun d => Fin.ext (by
    match d with
    | ⟨0, _⟩ => show win0_16.index t (0 : Fin 3) * 1 + 1 * 0 = t.val; omega
    | ⟨1, _⟩ => show win0_16.index t (1 : Fin 3) * 128 + 1 * n.val = n.val; omega
    | ⟨2, _⟩ => show win0_16.index t (2 : Fin 3) * 128 + 1 * k.val = k.val; omega)
  show body (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix3 (0 : Fin 1) n k)
    = Gfun m c (((cfg0.win 16).blk t).view.emb (ix3 (0 : Fin 1) n k))
  rw [hemb, body_apply (grid0.coords t) (graphIx t) e6 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) n k]
  show _ = GK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (graphIx t) n k
  unfold GK h3Of teOf mat vec rowv colv
  simp only [blk0 m c t, blk1 m c t, blk2 m c t, blk3 m c t, blk4 m c t, blk5 m c t, blk6 m c t, blk7 m c t, blk8 m c t, blk9 m c t, blk10 m c t, blk11 m c t, blk12 m c t, blk13 m c t, blk14 m c t, blk15 m c t]

/-! ## The array after the run -/

/-- An entry of the result is in point t's output block iff each coordinate is in the block's range. -/
theorem mem_blk (t : Fin cfg0.N) (i : S64x128x128.Idx) :
    i ∈ ((cfg0.win 16).blk t).view.set ↔ ∀ a : Fin 3, win0_16.index t a * S1x128x128.size a ≤ (i a).val
      ∧ (i a).val < win0_16.index t a * S1x128x128.size a + S1x128x128.size a := by
  show i ∈ ((View.whole main_v8).slice (win0_16.rect t)).set ↔ _
  rw [View.set_slice_whole, Rect.mem_set_unit]
  exact Iff.rfl

/-- The 64 slabs cover the result, so it ends holding `Gfun`. -/
theorem final (c : Dev nD) : (dats m 0 c).arrAt 16 cfg0.N = Gfun m c :=
  (dats m 0 c).arrAt_eq_of_cover 16 (Gfun m c) (fun t _ => flushed_eq m c t) fun i => by
    have h0 : (i 0).val < 64 := (i 0).isLt
    have h1 : (i 1).val < 128 := (i 1).isLt
    have h2 : (i 2).val < 128 := (i 2).isLt
    have hN : cfg0.N = 64 := N_0
    refine ⟨⟨(i 0).val, by omega⟩, flush0_16 _, ?_⟩
    obtain ⟨e0, e1, e2, e3, e4, e5, e6, e7, e8, e9, e10, e11, e12, e13, e14, e15, e16, e17, e18, e19, e20, e21, e22, e23, e24, e25, e26, e27, e28, e29, e30, e31, e32, e33, e34, e35, e36⟩ := idx_facts (⟨(i 0).val, by omega⟩ : Fin cfg0.N)
    rw [mem_blk]
    intro a
    match a with
    | ⟨0, _⟩ =>
      show win0_16.index _ (0 : Fin 3) * 1 ≤ (i 0).val ∧ (i 0).val < win0_16.index _ (0 : Fin 3) * 1 + 1
      rw [e3]; show (i 0).val * 1 ≤ (i 0).val ∧ (i 0).val < (i 0).val * 1 + 1; omega
    | ⟨1, _⟩ =>
      show win0_16.index _ (1 : Fin 3) * 128 ≤ (i 1).val ∧ (i 1).val < win0_16.index _ (1 : Fin 3) * 128 + 128
      rw [e4]; omega
    | ⟨2, _⟩ =>
      show win0_16.index _ (2 : Fin 3) * 128 ≤ (i 2).val ∧ (i 2).val < win0_16.index _ (2 : Fin 3) * 128 + 128
      rw [e5]; omega

/-- The kernel's run, read: the result array ends holding `Gfun`, the sixteen arguments unchanged. -/
theorem run : θ_run defs (onTc (τ := τ) (main (F := Ideal))) ⟨m, fun _ => 0, ρ⟩ fun r => ∀ c : Dev nD,
      r.2.mem ((c : Thread nD τ).loc main_v8) = Gfun m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (final m c), (h c).2⟩)
    (Cert.KernelIdeal.Value.run_blocks m ρ)

end Cert.KernelIdeal.Hand

end
-- ==== Proof.Finite.lean ====
/-
  Under the precondition every entry of every argument is a real number.

  The precondition is the conjunction, over the sixteen arguments, of "every entry's absolute value is below +∞". An extended
  real whose absolute value max(x, -x) is below the top element is neither infinity, hence a real number.
-/
import proofs.«174631_g79482664780415_cont_9to1_m_1303_2_alg».proof.Pre_finite_inputs
import proofs.«174631_g79482664780415_cont_9to1_m_1303_2_alg».proof.Proof.Gen.Pre_finite_inputs
import proofs.«174631_g79482664780415_cont_9to1_m_1303_2_alg».proof.Proof.Spec
import Idealize.ShloMosaic.PureOps.Ideal.Laws
import Idealize.ShloMosaic.Lib.ReduceAll
import Idealize.ShloMosaic.Lib.ValueIdx

noncomputable section

namespace Cert.GcnEdge

open Idealize.ShloMosaic

attribute [local instance] Cert.Pre_finite_inputs.Gen.facts

/-- The scalar shape has one index. -/
instance subsingleton_scalarIdx : Subsingleton Cert.Pre_finite_inputs.S_.Idx := ⟨fun a b => funext fun d => d.elim0⟩

/-- The word `0x7F800000` denotes `+∞`, the top element. -/
theorem ofBits_inf : Ideal.ofBits .f32 0x7F800000#32 = ⊤ := by simp [Ideal.ofBits, Ideal.ieee]

/-- A one-bit word made from a Boolean is 1 exactly when the Boolean is true. -/
theorem ofBool_eq_one_iff (b : Bool) : BitVec.ofBool b = 1#1 ↔ b = true := by cases b <;> decide

/-- An extended real whose absolute value `max a (-a)` is below the top element is a real number: it is not `⊤`
    (then `max a (-a) = ⊤`), and not `⊥` (then `-a = ⊤`). -/
theorem isR_of_abs_lt_top (a : EReal) (h : max a (-a) < ⊤) : IsR a := by
  have ht : a ≠ ⊤ := by
    rintro rfl
    exact absurd h (by simp)
  have hb : a ≠ ⊥ := by
    rintro rfl
    exact absurd h (by simp)
  exact ⟨a.toReal, (EReal.coe_toReal ht hb).symm⟩

/-- The value of a conjunction of two scalar predicates is 1 exactly when both are. -/
theorem andi_apply_eq_one {s : Shape} (a b : IVec s 1) (j : s.Idx) : andi a b j = 1#1 ↔ a j = 1#1 ∧ b j = 1#1 :=
  IntOp.andi_eq_one

/-- One argument's clause of the precondition, for any shape: if "every entry's absolute value is below `+∞`", reduced
    by `and` over all axes, is 1, then every entry is a real number. -/
theorem isR_of_all {S : Shape} {axes : List (Fin S.rank)} (x : FVec Ideal S .f32)
    (hb : Cert.Pre_finite_inputs.S_.BroadcastsInDim S (![] : Fin 0 → Fin S.rank))
    (hred : S.ReducesTo axes Cert.Pre_finite_inputs.S_) (hS : 0 < Cert.Pre_finite_inputs.S_.numel)
    (j : Cert.Pre_finite_inputs.S_.Idx)
    (e : Host.reduce IntOp.andi
        (cmpf .olt (Host.absf x) (broadcastInDim S ![] hb (constant (F := Ideal) Cert.Pre_finite_inputs.S_ .f32 0x7F800000#32)))
        (constantI Cert.Pre_finite_inputs.S_ 1 1#1) hred hS j = 1#1) :
    ∀ i, IsR (x i) := by
  intro i
  have h1 := Host.reduce_andi_all _ _ hred hS j e i
  have h2 : BitVec.ofBool (decide (max (x i) (-(x i)) < Ideal.ofBits .f32 0x7F800000#32)) = 1#1 := h1
  rw [ofBits_inf, ofBool_eq_one_iff, decide_eq_true_eq] at h2
  exact isR_of_abs_lt_top _ h2

/-- All sixteen arguments have real entries when the precondition's value is all ones. -/
theorem real_of_pre (x0 : FVec Ideal Cert.Pre_finite_inputs.S64x16384 .f32) (x1 : FVec Ideal Cert.Pre_finite_inputs.S64x1 .f32) (x2 : FVec Ideal Cert.Pre_finite_inputs.S128x128 .f32) (x3 : FVec Ideal Cert.Pre_finite_inputs.S128 .f32) (x4 : FVec Ideal Cert.Pre_finite_inputs.S128x128 .f32) (x5 : FVec Ideal Cert.Pre_finite_inputs.S128 .f32) (x6 : FVec Ideal Cert.Pre_finite_inputs.S128x128 .f32) (x7 : FVec Ideal Cert.Pre_finite_inputs.S128 .f32) (x8 : FVec Ideal Cert.Pre_finite_inputs.S1x128 .f32) (x9 : FVec Ideal Cert.Pre_finite_inputs.S128 .f32) (x10 : FVec Ideal Cert.Pre_finite_inputs.S128x128 .f32) (x11 : FVec Ideal Cert.Pre_finite_inputs.S128 .f32) (x12 : FVec Ideal Cert.Pre_finite_inputs.S256x128 .f32) (x13 : FVec Ideal Cert.Pre_finite_inputs.S128 .f32) (x14 : FVec Ideal Cert.Pre_finite_inputs.S256x1 .f32) (x15 : FVec Ideal Cert.Pre_finite_inputs.S1 .f32)
    (h : Cert.Pre_finite_inputs.fn (F := Ideal) x0 x1 x2 x3 x4 x5 x6 x7 x8 x9 x10 x11 x12 x13 x14 x15 = fun _ => 1#1) :
    (∀ i, IsR (x0 i)) ∧ (∀ i, IsR (x1 i)) ∧ (∀ i, IsR (x2 i)) ∧ (∀ i, IsR (x3 i)) ∧ (∀ i, IsR (x4 i)) ∧ (∀ i, IsR (x5 i)) ∧ (∀ i, IsR (x6 i)) ∧ (∀ i, IsR (x7 i)) ∧ (∀ i, IsR (x8 i)) ∧ (∀ i, IsR (x9 i)) ∧ (∀ i, IsR (x10 i)) ∧ (∀ i, IsR (x11 i)) ∧ (∀ i, IsR (x12 i)) ∧ (∀ i, IsR (x13 i)) ∧ (∀ i, IsR (x14 i)) ∧ (∀ i, IsR (x15 i)) := by
  -- the precondition's value at its one index, with the sixteen clauses in view
  have e := congrFun h ValueIdx.ix0
  unfold Cert.Pre_finite_inputs.fn Cert.Pre_finite_inputs.fn_part1 Cert.Pre_finite_inputs.fn_part2
    Cert.Pre_finite_inputs.fn_part3 Cert.Pre_finite_inputs.fn_part4 at e
  dsimp only at e
  -- the conjunction is nested to the left: peel the clauses off from the last to the first
  obtain ⟨e, e15⟩ := (andi_apply_eq_one _ _ _).1 e
  obtain ⟨e, e14⟩ := (andi_apply_eq_one _ _ _).1 e
  obtain ⟨e, e13⟩ := (andi_apply_eq_one _ _ _).1 e
  obtain ⟨e, e12⟩ := (andi_apply_eq_one _ _ _).1 e
  obtain ⟨e, e11⟩ := (andi_apply_eq_one _ _ _).1 e
  obtain ⟨e, e10⟩ := (andi_apply_eq_one _ _ _).1 e
  obtain ⟨e, e9⟩ := (andi_apply_eq_one _ _ _).1 e
  obtain ⟨e, e8⟩ := (andi_apply_eq_one _ _ _).1 e
  obtain ⟨e, e7⟩ := (andi_apply_eq_one _ _ _).1 e
  obtain ⟨e, e6⟩ := (andi_apply_eq_one _ _ _).1 e
  obtain ⟨e, e5⟩ := (andi_apply_eq_one _ _ _).1 e
  obtain ⟨e, e4⟩ := (andi_apply_eq_one _ _ _).1 e
  obtain ⟨e, e3⟩ := (andi_apply_eq_one _ _ _).1 e
  obtain ⟨e, e2⟩ := (andi_apply_eq_one _ _ _).1 e
  obtain ⟨e0, e1⟩ := (andi_apply_eq_one _ _ _).1 e
  exact ⟨isR_of_all x0 _ _ _ _ e0, isR_of_all x1 _ _ _ _ e1, isR_of_all x2 _ _ _ _ e2, isR_of_all x3 _ _ _ _ e3,
    isR_of_all x4 _ _ _ _ e4, isR_of_all x5 _ _ _ _ e5, isR_of_all x6 _ _ _ _ e6, isR_of_all x7 _ _ _ _ e7,
    isR_of_all x8 _ _ _ _ e8, isR_of_all x9 _ _ _ _ e9, isR_of_all x10 _ _ _ _ e10, isR_of_all x11 _ _ _ _ e11,
    isR_of_all x12 _ _ _ _ e12, isR_of_all x13 _ _ _ _ e13, isR_of_all x14 _ _ _ _ e14, isR_of_all x15 _ _ _ _ e15⟩

end Cert.GcnEdge

end
-- ==== Proof.lean ====
/-
  The proof of the certificate's claim: the kernel and the reference, read on the extended reals from memories that agree on
  the sixteen arguments, both run and leave the same 64 × 128 × 128 array of pair scores.

  The kernel folds the two linear layers of the pair scorer into two per-node vectors and one per-graph scalar,
  score(n, m) = h n · (We0_lo · w) + h m · (We0_hi · w) + (te · w' + be0 · w + be1), where the reference applies the layers one
  after the other to the joined features [h n, h m] and then to the result joined with the time embedding. On real numbers
  these are the same sum rearranged (distributivity and associativity of finite sums); on the extended reals the
  rearrangement needs every summand finite, which the precondition gives for the weights, biases and time stamps and
  which the intermediate values inherit: an adjacency entry is 0, 1 or 2, a degree is a real number at least 1 (the self
  loop), so its power -1/2 is real and equals the reference's guarded 1 / √deg, and sums, products, maxima and tanh of
  reals are real. The edge table itself may hold anything: only whether an entry is zero matters.

  The kernel's side (KernelBody, KernelDots, KernelValue, KernelPoint, KernelArray): one grid point per graph; its stored
  block is the folded score of the loaded blocks; the 64 output blocks cover the result. The reference's side (RefValue):
  its operations read one at a time at an index. The specification and its laws: Spec, SpecLaws, SpecArrays, Scalars;
  finiteness from the precondition: Finite. The frames are the generated ones; the idealization rewrote nothing.
-/
import proofs.«174631_g79482664780415_cont_9to1_m_1303_2_alg».proof.Defs
import proofs.«174631_g79482664780415_cont_9to1_m_1303_2_alg».proof.Proof.Gen.Kernel
import proofs.«174631_g79482664780415_cont_9to1_m_1303_2_alg».proof.Proof.Gen.Kernel.Frame
import proofs.«174631_g79482664780415_cont_9to1_m_1303_2_alg».proof.Proof.Gen.KernelIdeal
import proofs.«174631_g79482664780415_cont_9to1_m_1303_2_alg».proof.Proof.Gen.KernelIdeal.Frame
import proofs.«174631_g79482664780415_cont_9to1_m_1303_2_alg».proof.Proof.Gen.KernelIdeal.Value
import proofs.«174631_g79482664780415_cont_9to1_m_1303_2_alg».proof.Proof.Gen.ReferenceIdeal
import proofs.«174631_g79482664780415_cont_9to1_m_1303_2_alg».proof.Proof.Gen.Pre_finite_inputs
import proofs.«174631_g79482664780415_cont_9to1_m_1303_2_alg».proof.Proof.RefRunP
import proofs.«174631_g79482664780415_cont_9to1_m_1303_2_alg».proof.Proof.RefValue
import proofs.«174631_g79482664780415_cont_9to1_m_1303_2_alg».proof.Proof.KernelArray
import proofs.«174631_g79482664780415_cont_9to1_m_1303_2_alg».proof.Proof.Finite
import proofs.«174631_g79482664780415_cont_9to1_m_1303_2_alg».proof.Proof.SpecArrays
import Idealize.ShloMosaic.Adequacy
import Idealize.ShloMosaic.Init

noncomputable section

namespace Cert.Proof

open Idealize.ShloMosaic Idealize.ShloMosaic.TcCoe Idealize.SL.Sem Idealize.ShloMosaic.ValueIdx

attribute [local instance] Cert.Kernel.Gen.facts Cert.KernelIdeal.Gen.facts Cert.ReferenceIdeal.Gen.facts Cert.Pre_finite_inputs.Gen.facts

/-- The reference run's named result term is the last stage of the reference read operation by operation. -/
theorem ref_result (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v88 m c
      = Cert.ReferenceIdeal.ReadP.val_main_v88 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) := by
  unfold Cert.ReferenceIdeal.ValueP.res_main_v88; rfl

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the pair scores of the specification: the kernel with the folded form, the reference with the
    layer-by-layer form, equal on the real entries the precondition grants. -/
theorem algebraic : Cert.algebraic_KernelIdeal_ReferenceIdeal := by
  intro m ρ m' ρ' hpre hagree
  refine ⟨fun c => Cert.KernelIdeal.Hand.Gfun m c, Cert.KernelIdeal.Hand.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10, a11, a12, a13, a14, a15⟩ := hagree c
  obtain ⟨r0, r1, r2, r3, r4, r5, r6, r7, r8, r9, r10, r11, r12, r13, r14, r15⟩ :=
    Cert.GcnEdge.real_of_pre _ _ _ _ _ _ _ _ _ _ _ _ _ _ _ _ (hpre c)
  rw [ref_result, a0, a1, a2, a3, a4, a5, a6, a7, a8, a9, a10, a11, a12, a13, a14, a15]
  funext i
  obtain ⟨b, n, k, rfl⟩ : ∃ (b : Fin 64) (n k : Fin 128), i = ix3 b n k := ⟨i 0, i 1, i 2, eq_ix3 i⟩
  rw [Cert.ReferenceIdeal.RefValue.ref_apply]
  exact (Cert.GcnEdge.GK_eq_GR _ _ _ _ _ _ _ _ _ _ _ _ _ _ _ _ r1 r2 r3 r4 r5 r6 r7 r8 r9 r10 r11 r12 r13 r14 r15 b n k).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
